-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temperature" .f32 0x40A00000#32 ((67108864 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S8192x1 : Shape := ⟨2, ![8192, 1]⟩
abbrev S1x8192 : Shape := ⟨2, ![1, 8192]⟩
abbrev S128x128 : Shape := ⟨2, ![128, 128]⟩
abbrev S128x1 : Shape := ⟨2, ![128, 1]⟩
abbrev S128x8192 : Shape := ⟨2, ![128, 8192]⟩
abbrev S128 : Shape := ⟨1, ![128]⟩
abbrev S_ : Shape := ⟨0, ![]⟩

abbrev nBuf : Space → Nat
  | .hbm => 10
  | .vmem => 8
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S8192x128, .bf16⟩
  | .hbm, ⟨5, _⟩ => ⟨S8192x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S128x128, .bf16⟩
  | .local _ .vmem, ⟨1, _⟩ => ⟨S128x128, .bf16⟩
  | .local _ .vmem, ⟨2, _⟩ => ⟨S8192x128, .bf16⟩
  | .local _ .vmem, ⟨3, _⟩ => ⟨S128x1, .i32⟩
  | .local _ .vmem, ⟨4, _⟩ => ⟨S128x1, .i32⟩
  | .local _ .vmem, ⟨5, _⟩ => ⟨S1x8192, .i32⟩
  | .local _ .vmem, ⟨6, _⟩ => ⟨S128x1, .f32⟩
  | .local _ .vmem, ⟨7, _⟩ => ⟨S128x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8192_S8192x1 : S8192.ShapeCasts S8192x1
  shapeCasts_S8192_S1x8192 : S8192.ShapeCasts S1x8192
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  transposes_S8192x128_p1_0_S128x8192 : S8192x128.Transposes [1, 0] S128x8192
  iota_S128x1_d0_w32 : S128x1.Iotas .tc 32 [0]
  iota_S1x8192_d1_w32 : S1x8192.Iotas .tc 32 [1]
  broadcasts_S128x1_S128x8192 : S128x1.Broadcasts S128x8192
  broadcasts_S1x8192_S128x8192 : S1x8192.Broadcasts S128x8192
  reduces_S128x8192_S128 : S128x8192.Reduces [1] S128
  shapeCasts_S128_S128x1 : S128.ShapeCasts S128x1
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  natLt_1_32 : 1 < 32
  reducesTo_S8192x1_S_d0_1 : S8192x1.ReducesTo [0, 1] S_
  h_S_ : 0 < S_.numel
  dot_S128x128_S128x8192_S128x8192_1_0_0_1_n_n_wf : DotDims.WF S128x128 S128x8192 S128x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S8192x128.size a
  hwx0_0 : ∀ i : grid0.Coords, EltTy.bits .bf16 = 32 ∨ (Rect.block (s := S8192x128) S128x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .bf16 = 32 ∨ (Rect.block (s := S8192x128) S8192x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S8192x1.size a
  hwx0_2 : ∀ i : grid0.Coords, EltTy.bits .i32 = 32 ∨ (Rect.block (s := S8192x1) S128x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .i32 = 32 ∨ (Rect.block (s := S1x8192) S1x8192.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S8192x1.size a
  hwx0_4 : ∀ i : grid0.Coords, EltTy.bits .f32 = 32 ∨ (Rect.block (s := S8192x1) S128x1.size (cc0_transform_4 i) (hinb0_4 i)).WholeWords (EltTy.packing .f32)

variable [Facts₀]

def dot_S128x128_S128x8192_S128x8192_1_0_0_1_n_n : DotDims S128x128 S128x8192 S128x8192 where
  lhsContracting := [1]
  rhsContracting := [0]
  lhsNonContracting := [0]
  rhsNonContracting := [1]
  lhsBatch := []
  rhsBatch := []
  wf := dot_S128x128_S128x8192_S128x8192_1_0_0_1_n_n_wf

abbrev win0_0 : Pipeline.Window sig grid0 :=
  Pipeline.Window.ofSpec (Memref.whole main_v2) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S128x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S8192x8192, .i32⟩
  | .hbm, ⟨5, _⟩ => ⟨S8192x8192, .i32⟩
  | .hbm, ⟨6, _⟩ => ⟨S8192x8192, .i1⟩
  | .hbm, ⟨7, _⟩ => ⟨S8192x8192, .f32⟩
  | .hbm, ⟨8, _⟩ => ⟨S128x8192, .f32⟩
  | .hbm, ⟨9, _⟩ => ⟨S8192x8192, .f32⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x8192, .f32⟩
  | .hbm, ⟨17, _⟩ => ⟨S8192x8192, .f32⟩
  | .hbm, ⟨18, _⟩ => ⟨S8192x8192, .i32⟩
  | .hbm, ⟨19, _⟩ => ⟨S8192x8192, .i32⟩
  | .hbm, ⟨20, _⟩ => ⟨S_, .i32⟩
  | .hbm, ⟨21, _⟩ => ⟨S8192x8192, .i32⟩
  | .hbm, ⟨22, _⟩ => ⟨S8192x8192, .i32⟩
  | .hbm, ⟨23, _⟩ => ⟨S8192x8192, .i1⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x1, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_cst_6 : Ref sig .tc := ⟨.hbm, 46, rfl⟩
abbrev main_v36 : Ref sig .tc := ⟨.hbm, 47, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  h_S_ : 0 < S_.numel
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.RegionBits.lean ====
/-
  One kernel region between two stretches of host operations, two of whose input windows read ONE array.

  The region's five windows: the block of 128 query rows of the bf16 feature matrix (window 0), that matrix whole
  (window 1), the block of 128 row labels (window 2), the row of all labels (window 3), and the block of 128
  per-row losses it writes (window 4). Windows 0 and 1 read the same array, so the region cannot hold it whole
  twice: it holds one half share of it for each window, split at the entry and joined at the exit. An input
  window's staging buffer holds the window's block of its array at every point, fetched there or not; the output's
  holds the one value the body stores, a pure function of the four input blocks and the grid point.
  After the region every buffer holds what it held at its entry, except the output array, which holds the
  write-backs of all 64 points; the host operations after it read that array.
-/
import proofs.«168313_j43267500540145_2_alg».proof.Proof.Gen.Kernel.Launch
import proofs.«168313_j43267500540145_2_alg».proof.Proof.Gen.Kernel.Skeleton
import proofs.«168313_j43267500540145_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section AtEntry
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: where it is not
    fetched its block index has not moved since the point before. -/
theorem before_in0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer whole -/

abbrev rq : Rect S128x128 := Rect.unit (s := S128x128) ![0, 0] S128x128.size inb_S128x128_S128x128_0_0
abbrev rk : Rect S8192x128 := Rect.unit (s := S8192x128) ![0, 0] S8192x128.size inb_S8192x128_S8192x128_0_0
abbrev rl : Rect S128x1 := Rect.unit (s := S128x1) ![0, 0] S128x1.size inb_S128x1_S128x1_0_0
abbrev rc : Rect S1x8192 := Rect.unit (s := S1x8192) ![0, 0] S1x8192.size inb_S1x8192_S1x8192_0_0

/-- What the body leaves in the output window's buffer, from the four input blocks at grid point `i`: its one
    store, of the per-row losses. -/
def outBlock (i : grid0.Coords) (x0 : Vec F S128x128 .bf16) (x1 : Vec F S8192x128 .bf16) (x2 : Vec F S128x1 .i32) (x3 : Vec F S1x8192 .i32) : Vec F S128x1 .f32 :=
  View.canon [⟨rl, k0_pay1 (k0_pay3 i (View.ld x0 rq) (View.ld x1 rk) (View.ld x2 rl) (View.ld x3 rc)) (k0_pay4 (View.ld x2 rl) (View.ld x3 rc))⟩]

/-- The one store covers the buffer. -/
theorem cover_out (p0 : Vec F S128x1 .f32) (y : S128x1.Idx) :
    ∃ pc ∈ ([⟨rl, p0⟩] : List (View.Piece (Elt F) S128x1 .f32)), y ∈ pc.1.set :=
  View.cover_of_tiled [⟨rl, p0⟩] S128x1.size (by rfl) y

/-! ## The body's triple -/

set_option maxHeartbeats 4000000 in
/-- The body on whole staging memrefs, the inputs' at contents `x0 … x3` and the output's at anything, runs to the
    continuation holding the inputs' as they were and the output's at `outBlock` of them. -/
theorem sound_kernel (c : Dev nD) (E : Set ℕ) (i : grid0.Coords)
    (arg1 : Memref sig .tc .vmem S128x128 .bf16) (harg1 : arg1.IsWhole) (arg2 : Memref sig .tc .vmem S8192x128 .bf16) (harg2 : arg2.IsWhole)
    (arg3 : Memref sig .tc .vmem S128x1 .i32) (harg3 : arg3.IsWhole) (arg4 : Memref sig .tc .vmem S1x8192 .i32) (harg4 : arg4.IsWhole)
    (arg5 : Memref sig .tc .vmem S128x1 .f32) (harg5 : arg5.IsWhole)
    (x0 : Vec F S128x128 .bf16) (x1 : Vec F S8192x128 .bf16) (x2 : Vec F S128x1 .i32) (x3 : Vec F S1x8192 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outBlock i x0 x1 x2 x3)) -∗ K ⟨⟩))
      ⊢ wp frame (wpE (defs₀ (F := F)) Variants.none c none) E (cc0__kernel i arg1 harg1 arg2 harg2 arg3 harg3 arg4 harg4 arg5 harg5) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover_out _)

/-! ## The pipeline's proof data -/

/-- The proof data: the arrays as the region finds them; after the body at point `t` each input's buffer at its
    block and the output's at `outBlock` of the input blocks; the invariant the scoped rest and the generator
    register, untouched; nothing owed. Windows 0 and 1 read one array: each holds a half share of it. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outBlock (grid0.coords t) (iblk V c 0 t) (iblk V c 1 t) (iblk V c 2 t) (iblk V c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) :
    (dat V c).after 4 t = outBlock (grid0.coords t) (iblk V c 0 t) (iblk V c 1 t) (iblk V c 2 t) (iblk V c 3 t) := by dsimp only [dat]

theorem before_0 (c : Dev nD) (t : Fin cfg0.N) (d) : (dat V c).before 0 t d = iblk V c 0 t :=
  before_in0_of V (dat V c) (A_eq V c 0) (after_0 V c) t d
theorem before_1 (c : Dev nD) (t : Fin cfg0.N) (d) : (dat V c).before 1 t d = iblk V c 1 t :=
  before_in1_of V (dat V c) (A_eq V c 1) (after_1 V c) t d
theorem before_2 (c : Dev nD) (t : Fin cfg0.N) (d) : (dat V c).before 2 t d = iblk V c 2 t :=
  before_in2_of V (dat V c) (A_eq V c 2) (after_2 V c) t d
theorem before_3 (c : Dev nD) (t : Fin cfg0.N) (d) : (dat V c).before 3 t d = iblk V c 3 t :=
  before_in3_of V (dat V c) (A_eq V c 3) (after_3 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

/-- The body at any point: the inputs' memrefs hold their blocks, so `sound_kernel` applies; the invariant and the
    core's debts pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat (F := F) V c) (defs₀ (F := F)) Variants.none () Set.univ := fun t => by
  rw [bigSep_W0, bigSep_W0]
  exact sound_body V c t

/-! ## The arrays at the region's boundary: one array behind two windows -/

/-- The four distinct buffers behind the five windows' arrays, one by one. -/
theorem arrBufs_eq (c : Dev nD) (V' : (b : Ref sig .tc) → Buf (Elt F) ((c : Thread nD τ).loc b)) :
    (Pipeline.arrBufs spec0 c V' : sProp 𝕄)
      = iprop((((c : Thread nD τ).loc main_v2) ↦{fullShare} V' main_v2) ∗ (((c : Thread nD τ).loc main_v0) ↦{fullShare} V' main_v0)
          ∗ (((c : Thread nD τ).loc main_v1) ↦{fullShare} V' main_v1) ∗ (((c : Thread nD τ).loc main_v3) ↦{fullShare} V' main_v3)) := by
  unfold Pipeline.arrBufs
  exact bigSep_eq_bigSepL_of_eq [main_v2, main_v0, main_v1, main_v3] (by decide) (by decide) _

/-- The pipeline's arrays at contents `G`, window by window: the feature matrix at a half share for window 0 and
    at the other half for window 1, the two label arrays and the loss array at the full share. -/
theorem arrays_chain (c : Dev nD) (G : (w : Fin cfg0.W) → Buf (Elt F) ((cfg0.win w).arr.view.loc (c : Thread nD τ))) :
    ((dat V c).arrays G : sProp 𝕄)
      = iprop((((c : Thread nD τ).loc main_v2) ↦{fullShare.left} G 0) ∗ (((c : Thread nD τ).loc main_v2) ↦{fullShare.right} G 1)
          ∗ (((c : Thread nD τ).loc main_v0) ↦{fullShare} G 2) ∗ (((c : Thread nD τ).loc main_v1) ↦{fullShare} G 3)
          ∗ (((c : Thread nD τ).loc main_v3) ↦{fullShare} G 4)) := by
  unfold Dat.arrays
  rw [bigSep_W0, (arr_whole0 0).set_eq_univ, (arr_whole0 2).set_eq_univ, (arr_whole0 3).set_eq_univ, (arr_whole0 4).set_eq_univ]
  rfl

/-- The four buffers, each whole at the full share, are the pipeline's arrays at the same contents: the feature
    matrix's full share is its two halves, one per window reading it. -/
theorem arrays_of_arrBufs (c : Dev nD) :
    (Pipeline.arrBufs spec0 c (V c) : sProp 𝕄) ⊢ (dat V c).arrays ((dat V c).arrAt · 0) := by
  rw [arrBufs_eq, arrays_chain]
  iintro ⟨H2, H0, H1, H3⟩
  icases (pointsTo_share (PosShare.mem_left_op_right fullShare)).1 $$ H2 with ⟨Ha, Hb⟩
  isplitl [Ha]; · iexact Ha
  isplitl [Hb]; · iexact Hb
  isplitl [H0]; · iexact H0
  isplitl [H1]; · iexact H1
  iexact H3

/-- And back, at any contents `V'` the arrays' buffers hold: the two halves of the feature matrix join. -/
theorem arrBufs_of_arrays (c : Dev nD) (V' : (b : Ref sig .tc) → Buf (Elt F) ((c : Thread nD τ).loc b))
    (G : (w : Fin cfg0.W) → Buf (Elt F) ((cfg0.win w).arr.view.loc (c : Thread nD τ))) (hG : ∀ w, G w = V' (Pipeline.arrRef spec0 w)) :
    ((dat V c).arrays G : sProp 𝕄) ⊢ Pipeline.arrBufs spec0 c V' := by
  rw [arrBufs_eq, arrays_chain, hG 0, hG 1, hG 2, hG 3, hG 4]
  iintro ⟨Ha, Hb, H0, H1, H3⟩
  isplitl [Ha Hb]
  · iapply (pointsTo_share (PosShare.mem_left_op_right fullShare)).2
    isplitl [Ha]; · iexact Ha
    iexact Hb
  isplitl [H0]; · iexact H0
  isplitl [H1]; · iexact H1
  iexact H3

end AtEntry

/-! # The run: the host operations, the region, the host operations -/

/-- Core `c`'s buffers at launch, -/
abbrev W0 : Dev nD → Valuation τ sig (Elt F) := fun c b => (s₀ m ρ).mem ((c : Dev nD), b)
/-- after the host operations before the region (the labels as a column and as a row, the features narrowed), -/
abbrev W1 : Dev nD → Valuation τ sig (Elt F) := fun c => StableHlo.after hostOps0 (W0 m ρ c)
/-- the same read at the TensorCore's references: what the region's proof data take. -/
abbrev V1 : (c : Dev nD) → (b : Ref sig .tc) → Buf (Elt F) ((c : Thread nD τ).loc b) := fun c b => W1 m ρ c b
/-- At the region's exit: the loss array at what the 64 write-backs leave, every other buffer as entered. -/
def W2 (c : Dev nD) : Valuation τ sig (Elt F) :=
  Pipeline.withArrays (fun _ : Fin 1 => spec0 4) c (W1 m ρ c) fun _ => (dat (V1 m ρ) c).arrAt 4 cfg0.N
theorem W2_out (c : Dev nD) : W2 m ρ c (Proc.devRef .tc main_v3) = (dat (V1 m ρ) c).arrAt 4 cfg0.N := by
  unfold W2; exact Pipeline.withArrays_arr (fun _ : Fin 1 => spec0 4) (fun _ _ _ => Subsingleton.elim _ _) c _ _ 0
theorem W2_of_ne (c : Dev nD) (b : Ref sig .tc) (hb : main_v3 ≠ b) :
    W2 m ρ c (Proc.devRef .tc b) = W1 m ρ c (Proc.devRef .tc b) := by
  unfold W2; exact Pipeline.withArrays_of_ne (fun _ : Fin 1 => spec0 4) c _ _ b (fun _ => hb)
abbrev V2 : (c : Dev nD) → (b : Ref sig .tc) → Buf (Elt F) ((c : Thread nD τ).loc b) := fun c b => W2 m ρ c b
/-- At the exit each array holds what the pipeline leaves: an input what it held at entry, the output its write-backs. -/
theorem exit_arr (c : Dev nD) (w : Fin cfg0.W) : (dat (V1 m ρ) c).arrAt w cfg0.N = V2 m ρ c (Pipeline.arrRef spec0 w) :=
  match w with
  | ⟨0, _⟩ => (((dat (V1 m ρ) c).arrAt_in 0 rfl _).trans (A_eq (V1 m ρ) c 0)).trans (W2_of_ne m ρ c main_v2 (by decide)).symm
  | ⟨1, _⟩ => (((dat (V1 m ρ) c).arrAt_in 1 rfl _).trans (A_eq (V1 m ρ) c 1)).trans (W2_of_ne m ρ c main_v2 (by decide)).symm
  | ⟨2, _⟩ => (((dat (V1 m ρ) c).arrAt_in 2 rfl _).trans (A_eq (V1 m ρ) c 2)).trans (W2_of_ne m ρ c main_v0 (by decide)).symm
  | ⟨3, _⟩ => (((dat (V1 m ρ) c).arrAt_in 3 rfl _).trans (A_eq (V1 m ρ) c 3)).trans (W2_of_ne m ρ c main_v1 (by decide)).symm
  | ⟨4, _⟩ => (W2_out m ρ c).symm
theorem exit_rest (c : Dev nD) : ∀ b, b ∉ Finset.univ.image (Pipeline.arrRef spec0) → V2 m ρ c b = V1 m ρ c b :=
  fun b hb => W2_of_ne m ρ c b fun e => hb (Finset.mem_image.mpr ⟨4, Finset.mem_univ _, e⟩)
/-- After the host operations after the region (the losses summed and divided by their number). -/
abbrev W3 : Dev nD → Valuation τ sig (Elt F) := fun c => StableHlo.after hostOps1 (W2 m ρ c)

/-- Argument `main_arg0` ends as launched: no host operation writes it and the region only reads it or passes it by. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- Argument `main_arg1` ends as launched: no host operation writes it and the region only reads it or passes it by. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's debts, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-! ## The arrays out of the unscoped buffers at the entry, and back at the exit -/

theorem entry_split (c : Dev nD) :
    (unscopedBufs c (V1 m ρ c) : sProp 𝕄)
      ⊢ iprop((dat (V1 m ρ) c).arrays ((dat (V1 m ρ) c).arrAt · 0) ∗ Pipeline.unscopedRest (Ix := Unit) (Name := ℕ) (U := UR sig nD τ) (Lvl := ℕ) spec0 c (V1 m ρ c)) := by
  rw [Pipeline.unscopedBufs_split₀ cfgs 0 winFacts₀0.arr_unscoped c (V1 m ρ c)]
  exact sep_mono (arrays_of_arrBufs (V1 m ρ) c) .rfl

theorem exit_join (c : Dev nD) :
    iprop((dat (V1 m ρ) c).arrays ((dat (V1 m ρ) c).arrAt · cfg0.N) ∗ Pipeline.unscopedRest (Ix := Unit) (Name := ℕ) (U := UR sig nD τ) (Lvl := ℕ) spec0 c (V1 m ρ c))
      ⊢ (unscopedBufs c (V2 m ρ c) : sProp 𝕄) := by
  rw [Pipeline.unscopedBufs_split₀ cfgs 0 winFacts₀0.arr_unscoped c (V2 m ρ c)]
  refine sep_mono (arrBufs_of_arrays (V1 m ρ) c (V2 m ρ c) _ (exit_arr m ρ c)) (Entails.of_eq ?_)
  unfold Pipeline.unscopedRest
  exact bigSep_congr fun b hb => by rw [exit_rest m ρ c b (Finset.mem_sdiff.mp hb).2]

/-- The same two facts spelled over the proof data family. -/
theorem entry_split' (c : Dev nD) :
    (unscopedBufs c (V1 m ρ c) : sProp 𝕄)
      ⊢ iprop((pdats m ρ 0 c).arrays ((pdats m ρ 0 c).arrAt · 0) ∗ Pipeline.unscopedRest (Ix := Unit) (Name := ℕ) (U := UR sig nD τ) (Lvl := ℕ) spec0 c (V1 m ρ c)) :=
  entry_split m ρ c
theorem exit_join' (c : Dev nD) :
    iprop((pdats m ρ 0 c).arrays ((pdats m ρ 0 c).arrAt · (Pipeline.pin (pcfgs (F := F)) adm 0).N) ∗ Pipeline.unscopedRest (Ix := Unit) (Name := ℕ) (U := UR sig nD τ) (Lvl := ℕ) spec0 c (V1 m ρ c))
      ⊢ (unscopedBufs c (V2 m ρ c) : sProp 𝕄) :=
  exit_join m ρ c

/-! ## The region as a segment -/

set_option backward.isDefEq.respectTransparency.types false in
/-- The region over the thread state: entered from every unscoped buffer at `W1`, left at `W2`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry_split' m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join' m ρ c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
theorem main_run (c : Dev nD) : main (F := F) c = Pipeline.Seg.run (segs m ρ) := (main_chain c).trans (by chain_rfl)

set_option backward.isDefEq.respectTransparency.types false in
/-- The program's run: from any memory with zero counters every weakly fair execution of @main on the TensorCores
    terminates, nothing faulting, and every final state has the result buffer at the last boundary's contents and
    the argument arrays as launched. -/
theorem run : θ_run defs (onTc (τ := τ) (main (F := F))) ⟨m, fun _ => 0, ρ⟩ (fun r => ∀ c : Dev nD,
      r.2.mem ((c.tc : Thread nD τ).loc main_v5) = W3 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => (show iprop(StableHlo.held (c : Thread nD τ) (Pipeline.ucRefs τ sig) (W3 m ρ c) ∗ R c)
        ⊢ iprop(Tₙ m ρ c ∗ ∃ W, owes (c : Thread nD τ) (0 : CellTallies nD τ sig Unit) W) from by
      iintro ⟨Hh, Hp, HO⟩
      isplitl [Hh Hp]
      · isplitl [Hh]; · iexact Hh
        iexact Hp
      iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v5 (by decide)),
       (h c _ (mem_uc main_arg0 (by decide))).trans (W3_main_arg0 m ρ c),
       (h c _ (mem_uc main_arg1 (by decide))).trans (W3_main_arg1 m ρ c)⟩)

end Cert.Kernel.Region

end
-- ==== Proof.RegionIdeal.lean ====
/-
  One kernel region between two stretches of host operations, two of whose input windows read ONE array.

  The region's five windows: the block of 128 query rows of the bf16 feature matrix (window 0), that matrix whole
  (window 1), the block of 128 row labels (window 2), the row of all labels (window 3), and the block of 128
  per-row losses it writes (window 4). Windows 0 and 1 read the same array, so the region cannot hold it whole
  twice: it holds one half share of it for each window, split at the entry and joined at the exit. An input
  window's staging buffer holds the window's block of its array at every point, fetched there or not; the output's
  holds the one value the body stores, a pure function of the four input blocks and the grid point.
  After the region every buffer holds what it held at its entry, except the output array, which holds the
  write-backs of all 64 points; the host operations after it read that array.
-/
import proofs.«168313_j43267500540145_2_alg».proof.Proof.Gen.KernelIdeal.Launch
import proofs.«168313_j43267500540145_2_alg».proof.Proof.Gen.KernelIdeal.Skeleton
import proofs.«168313_j43267500540145_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section AtEntry
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: where it is not
    fetched its block index has not moved since the point before. -/
theorem before_in0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer whole -/

abbrev rq : Rect S128x128 := Rect.unit (s := S128x128) ![0, 0] S128x128.size inb_S128x128_S128x128_0_0
abbrev rk : Rect S8192x128 := Rect.unit (s := S8192x128) ![0, 0] S8192x128.size inb_S8192x128_S8192x128_0_0
abbrev rl : Rect S128x1 := Rect.unit (s := S128x1) ![0, 0] S128x1.size inb_S128x1_S128x1_0_0
abbrev rc : Rect S1x8192 := Rect.unit (s := S1x8192) ![0, 0] S1x8192.size inb_S1x8192_S1x8192_0_0

/-- What the body leaves in the output window's buffer, from the four input blocks at grid point `i`: its one
    store, of the per-row losses. -/
def outBlock (i : grid0.Coords) (x0 : Vec F S128x128 .bf16) (x1 : Vec F S8192x128 .bf16) (x2 : Vec F S128x1 .i32) (x3 : Vec F S1x8192 .i32) : Vec F S128x1 .f32 :=
  View.canon [⟨rl, k0_pay1 (k0_pay3 i (View.ld x0 rq) (View.ld x1 rk) (View.ld x2 rl) (View.ld x3 rc)) (k0_pay4 (View.ld x2 rl) (View.ld x3 rc))⟩]

/-- The one store covers the buffer. -/
theorem cover_out (p0 : Vec F S128x1 .f32) (y : S128x1.Idx) :
    ∃ pc ∈ ([⟨rl, p0⟩] : List (View.Piece (Elt F) S128x1 .f32)), y ∈ pc.1.set :=
  View.cover_of_tiled [⟨rl, p0⟩] S128x1.size (by rfl) y

/-! ## The body's triple -/

set_option maxHeartbeats 4000000 in
/-- The body on whole staging memrefs, the inputs' at contents `x0 … x3` and the output's at anything, runs to the
    continuation holding the inputs' as they were and the output's at `outBlock` of them. -/
theorem sound_kernel (c : Dev nD) (E : Set ℕ) (i : grid0.Coords)
    (arg1 : Memref sig .tc .vmem S128x128 .bf16) (harg1 : arg1.IsWhole) (arg2 : Memref sig .tc .vmem S8192x128 .bf16) (harg2 : arg2.IsWhole)
    (arg3 : Memref sig .tc .vmem S128x1 .i32) (harg3 : arg3.IsWhole) (arg4 : Memref sig .tc .vmem S1x8192 .i32) (harg4 : arg4.IsWhole)
    (arg5 : Memref sig .tc .vmem S128x1 .f32) (harg5 : arg5.IsWhole)
    (x0 : Vec F S128x128 .bf16) (x1 : Vec F S8192x128 .bf16) (x2 : Vec F S128x1 .i32) (x3 : Vec F S1x8192 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outBlock i x0 x1 x2 x3)) -∗ K ⟨⟩))
      ⊢ wp frame (wpE (defs₀ (F := F)) Variants.none c none) E (cc0__kernel i arg1 harg1 arg2 harg2 arg3 harg3 arg4 harg4 arg5 harg5) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover_out _)

/-! ## The pipeline's proof data -/

/-- The proof data: the arrays as the region finds them; after the body at point `t` each input's buffer at its
    block and the output's at `outBlock` of the input blocks; the invariant the scoped rest and the generator
    register, untouched; nothing owed. Windows 0 and 1 read one array: each holds a half share of it. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outBlock (grid0.coords t) (iblk V c 0 t) (iblk V c 1 t) (iblk V c 2 t) (iblk V c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) :
    (dat V c).after 4 t = outBlock (grid0.coords t) (iblk V c 0 t) (iblk V c 1 t) (iblk V c 2 t) (iblk V c 3 t) := by dsimp only [dat]

theorem before_0 (c : Dev nD) (t : Fin cfg0.N) (d) : (dat V c).before 0 t d = iblk V c 0 t :=
  before_in0_of V (dat V c) (A_eq V c 0) (after_0 V c) t d
theorem before_1 (c : Dev nD) (t : Fin cfg0.N) (d) : (dat V c).before 1 t d = iblk V c 1 t :=
  before_in1_of V (dat V c) (A_eq V c 1) (after_1 V c) t d
theorem before_2 (c : Dev nD) (t : Fin cfg0.N) (d) : (dat V c).before 2 t d = iblk V c 2 t :=
  before_in2_of V (dat V c) (A_eq V c 2) (after_2 V c) t d
theorem before_3 (c : Dev nD) (t : Fin cfg0.N) (d) : (dat V c).before 3 t d = iblk V c 3 t :=
  before_in3_of V (dat V c) (A_eq V c 3) (after_3 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

/-- The body at any point: the inputs' memrefs hold their blocks, so `sound_kernel` applies; the invariant and the
    core's debts pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat (F := F) V c) (defs₀ (F := F)) Variants.none () Set.univ := fun t => by
  rw [bigSep_W0, bigSep_W0]
  exact sound_body V c t

/-! ## The arrays at the region's boundary: one array behind two windows -/

/-- The four distinct buffers behind the five windows' arrays, one by one. -/
theorem arrBufs_eq (c : Dev nD) (V' : (b : Ref sig .tc) → Buf (Elt F) ((c : Thread nD τ).loc b)) :
    (Pipeline.arrBufs spec0 c V' : sProp 𝕄)
      = iprop((((c : Thread nD τ).loc main_v2) ↦{fullShare} V' main_v2) ∗ (((c : Thread nD τ).loc main_v0) ↦{fullShare} V' main_v0)
          ∗ (((c : Thread nD τ).loc main_v1) ↦{fullShare} V' main_v1) ∗ (((c : Thread nD τ).loc main_v3) ↦{fullShare} V' main_v3)) := by
  unfold Pipeline.arrBufs
  exact bigSep_eq_bigSepL_of_eq [main_v2, main_v0, main_v1, main_v3] (by decide) (by decide) _

/-- The pipeline's arrays at contents `G`, window by window: the feature matrix at a half share for window 0 and
    at the other half for window 1, the two label arrays and the loss array at the full share. -/
theorem arrays_chain (c : Dev nD) (G : (w : Fin cfg0.W) → Buf (Elt F) ((cfg0.win w).arr.view.loc (c : Thread nD τ))) :
    ((dat V c).arrays G : sProp 𝕄)
      = iprop((((c : Thread nD τ).loc main_v2) ↦{fullShare.left} G 0) ∗ (((c : Thread nD τ).loc main_v2) ↦{fullShare.right} G 1)
          ∗ (((c : Thread nD τ).loc main_v0) ↦{fullShare} G 2) ∗ (((c : Thread nD τ).loc main_v1) ↦{fullShare} G 3)
          ∗ (((c : Thread nD τ).loc main_v3) ↦{fullShare} G 4)) := by
  unfold Dat.arrays
  rw [bigSep_W0, (arr_whole0 0).set_eq_univ, (arr_whole0 2).set_eq_univ, (arr_whole0 3).set_eq_univ, (arr_whole0 4).set_eq_univ]
  rfl

/-- The four buffers, each whole at the full share, are the pipeline's arrays at the same contents: the feature
    matrix's full share is its two halves, one per window reading it. -/
theorem arrays_of_arrBufs (c : Dev nD) :
    (Pipeline.arrBufs spec0 c (V c) : sProp 𝕄) ⊢ (dat V c).arrays ((dat V c).arrAt · 0) := by
  rw [arrBufs_eq, arrays_chain]
  iintro ⟨H2, H0, H1, H3⟩
  icases (pointsTo_share (PosShare.mem_left_op_right fullShare)).1 $$ H2 with ⟨Ha, Hb⟩
  isplitl [Ha]; · iexact Ha
  isplitl [Hb]; · iexact Hb
  isplitl [H0]; · iexact H0
  isplitl [H1]; · iexact H1
  iexact H3

/-- And back, at any contents `V'` the arrays' buffers hold: the two halves of the feature matrix join. -/
theorem arrBufs_of_arrays (c : Dev nD) (V' : (b : Ref sig .tc) → Buf (Elt F) ((c : Thread nD τ).loc b))
    (G : (w : Fin cfg0.W) → Buf (Elt F) ((cfg0.win w).arr.view.loc (c : Thread nD τ))) (hG : ∀ w, G w = V' (Pipeline.arrRef spec0 w)) :
    ((dat V c).arrays G : sProp 𝕄) ⊢ Pipeline.arrBufs spec0 c V' := by
  rw [arrBufs_eq, arrays_chain, hG 0, hG 1, hG 2, hG 3, hG 4]
  iintro ⟨Ha, Hb, H0, H1, H3⟩
  isplitl [Ha Hb]
  · iapply (pointsTo_share (PosShare.mem_left_op_right fullShare)).2
    isplitl [Ha]; · iexact Ha
    iexact Hb
  isplitl [H0]; · iexact H0
  isplitl [H1]; · iexact H1
  iexact H3

end AtEntry

/-! # The run: the host operations, the region, the host operations -/

/-- Core `c`'s buffers at launch, -/
abbrev W0 : Dev nD → Valuation τ sig (Elt F) := fun c b => (s₀ m ρ).mem ((c : Dev nD), b)
/-- after the host operations before the region (the labels as a column and as a row, the features narrowed), -/
abbrev W1 : Dev nD → Valuation τ sig (Elt F) := fun c => StableHlo.after hostOps0 (W0 m ρ c)
/-- the same read at the TensorCore's references: what the region's proof data take. -/
abbrev V1 : (c : Dev nD) → (b : Ref sig .tc) → Buf (Elt F) ((c : Thread nD τ).loc b) := fun c b => W1 m ρ c b
/-- At the region's exit: the loss array at what the 64 write-backs leave, every other buffer as entered. -/
def W2 (c : Dev nD) : Valuation τ sig (Elt F) :=
  Pipeline.withArrays (fun _ : Fin 1 => spec0 4) c (W1 m ρ c) fun _ => (dat (V1 m ρ) c).arrAt 4 cfg0.N
theorem W2_out (c : Dev nD) : W2 m ρ c (Proc.devRef .tc main_v3) = (dat (V1 m ρ) c).arrAt 4 cfg0.N := by
  unfold W2; exact Pipeline.withArrays_arr (fun _ : Fin 1 => spec0 4) (fun _ _ _ => Subsingleton.elim _ _) c _ _ 0
theorem W2_of_ne (c : Dev nD) (b : Ref sig .tc) (hb : main_v3 ≠ b) :
    W2 m ρ c (Proc.devRef .tc b) = W1 m ρ c (Proc.devRef .tc b) := by
  unfold W2; exact Pipeline.withArrays_of_ne (fun _ : Fin 1 => spec0 4) c _ _ b (fun _ => hb)
abbrev V2 : (c : Dev nD) → (b : Ref sig .tc) → Buf (Elt F) ((c : Thread nD τ).loc b) := fun c b => W2 m ρ c b
/-- At the exit each array holds what the pipeline leaves: an input what it held at entry, the output its write-backs. -/
theorem exit_arr (c : Dev nD) (w : Fin cfg0.W) : (dat (V1 m ρ) c).arrAt w cfg0.N = V2 m ρ c (Pipeline.arrRef spec0 w) :=
  match w with
  | ⟨0, _⟩ => (((dat (V1 m ρ) c).arrAt_in 0 rfl _).trans (A_eq (V1 m ρ) c 0)).trans (W2_of_ne m ρ c main_v2 (by decide)).symm
  | ⟨1, _⟩ => (((dat (V1 m ρ) c).arrAt_in 1 rfl _).trans (A_eq (V1 m ρ) c 1)).trans (W2_of_ne m ρ c main_v2 (by decide)).symm
  | ⟨2, _⟩ => (((dat (V1 m ρ) c).arrAt_in 2 rfl _).trans (A_eq (V1 m ρ) c 2)).trans (W2_of_ne m ρ c main_v0 (by decide)).symm
  | ⟨3, _⟩ => (((dat (V1 m ρ) c).arrAt_in 3 rfl _).trans (A_eq (V1 m ρ) c 3)).trans (W2_of_ne m ρ c main_v1 (by decide)).symm
  | ⟨4, _⟩ => (W2_out m ρ c).symm
theorem exit_rest (c : Dev nD) : ∀ b, b ∉ Finset.univ.image (Pipeline.arrRef spec0) → V2 m ρ c b = V1 m ρ c b :=
  fun b hb => W2_of_ne m ρ c b fun e => hb (Finset.mem_image.mpr ⟨4, Finset.mem_univ _, e⟩)
/-- After the host operations after the region (the losses summed and divided by their number). -/
abbrev W3 : Dev nD → Valuation τ sig (Elt F) := fun c => StableHlo.after hostOps1 (W2 m ρ c)

/-- Argument `main_arg0` ends as launched: no host operation writes it and the region only reads it or passes it by. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- Argument `main_arg1` ends as launched: no host operation writes it and the region only reads it or passes it by. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's debts, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-! ## The arrays out of the unscoped buffers at the entry, and back at the exit -/

theorem entry_split (c : Dev nD) :
    (unscopedBufs c (V1 m ρ c) : sProp 𝕄)
      ⊢ iprop((dat (V1 m ρ) c).arrays ((dat (V1 m ρ) c).arrAt · 0) ∗ Pipeline.unscopedRest (Ix := Unit) (Name := ℕ) (U := UR sig nD τ) (Lvl := ℕ) spec0 c (V1 m ρ c)) := by
  rw [Pipeline.unscopedBufs_split₀ cfgs 0 winFacts₀0.arr_unscoped c (V1 m ρ c)]
  exact sep_mono (arrays_of_arrBufs (V1 m ρ) c) .rfl

theorem exit_join (c : Dev nD) :
    iprop((dat (V1 m ρ) c).arrays ((dat (V1 m ρ) c).arrAt · cfg0.N) ∗ Pipeline.unscopedRest (Ix := Unit) (Name := ℕ) (U := UR sig nD τ) (Lvl := ℕ) spec0 c (V1 m ρ c))
      ⊢ (unscopedBufs c (V2 m ρ c) : sProp 𝕄) := by
  rw [Pipeline.unscopedBufs_split₀ cfgs 0 winFacts₀0.arr_unscoped c (V2 m ρ c)]
  refine sep_mono (arrBufs_of_arrays (V1 m ρ) c (V2 m ρ c) _ (exit_arr m ρ c)) (Entails.of_eq ?_)
  unfold Pipeline.unscopedRest
  exact bigSep_congr fun b hb => by rw [exit_rest m ρ c b (Finset.mem_sdiff.mp hb).2]

/-- The same two facts spelled over the proof data family. -/
theorem entry_split' (c : Dev nD) :
    (unscopedBufs c (V1 m ρ c) : sProp 𝕄)
      ⊢ iprop((pdats m ρ 0 c).arrays ((pdats m ρ 0 c).arrAt · 0) ∗ Pipeline.unscopedRest (Ix := Unit) (Name := ℕ) (U := UR sig nD τ) (Lvl := ℕ) spec0 c (V1 m ρ c)) :=
  entry_split m ρ c
theorem exit_join' (c : Dev nD) :
    iprop((pdats m ρ 0 c).arrays ((pdats m ρ 0 c).arrAt · (Pipeline.pin (pcfgs (F := F)) adm 0).N) ∗ Pipeline.unscopedRest (Ix := Unit) (Name := ℕ) (U := UR sig nD τ) (Lvl := ℕ) spec0 c (V1 m ρ c))
      ⊢ (unscopedBufs c (V2 m ρ c) : sProp 𝕄) :=
  exit_join m ρ c

/-! ## The region as a segment -/

set_option backward.isDefEq.respectTransparency.types false in
/-- The region over the thread state: entered from every unscoped buffer at `W1`, left at `W2`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry_split' m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join' m ρ c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
theorem main_run (c : Dev nD) : main (F := F) c = Pipeline.Seg.run (segs m ρ) := (main_chain c).trans (by chain_rfl)

set_option backward.isDefEq.respectTransparency.types false in
/-- The program's run: from any memory with zero counters every weakly fair execution of @main on the TensorCores
    terminates, nothing faulting, and every final state has the result buffer at the last boundary's contents and
    the argument arrays as launched. -/
theorem run : θ_run defs (onTc (τ := τ) (main (F := F))) ⟨m, fun _ => 0, ρ⟩ (fun r => ∀ c : Dev nD,
      r.2.mem ((c.tc : Thread nD τ).loc main_v5) = W3 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => (show iprop(StableHlo.held (c : Thread nD τ) (Pipeline.ucRefs τ sig) (W3 m ρ c) ∗ R c)
        ⊢ iprop(Tₙ m ρ c ∗ ∃ W, owes (c : Thread nD τ) (0 : CellTallies nD τ sig Unit) W) from by
      iintro ⟨Hh, Hp, HO⟩
      isplitl [Hh Hp]
      · isplitl [Hh]; · iexact Hh
        iexact Hp
      iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v5 (by decide)),
       (h c _ (mem_uc main_arg0 (by decide))).trans (W3_main_arg0 m ρ c),
       (h c _ (mem_uc main_arg1 (by decide))).trans (W3_main_arg1 m ρ c)⟩)

end Cert.KernelIdeal.Region

end
-- ==== Proof.Spec.lean ====
/-
  The supervised-contrastive loss both programs compute, as one function of the feature matrix
  `f : Fin 8192 → Fin 128 → EReal` and the label vector `lab : Fin 8192 → BitVec 32`, on the extended reals.

  For a row `i`: the similarities `sim i j = ⟨f i, f j⟩ · c` with `c = 1 / D`, `D = 13421773 / 67108864` the
  temperature as the reference holds it; their maximum over the row; the shifted similarities; the sum over the
  row of their exponentials OFF the diagonal; the log-probabilities `shifted − log (that sum)`; the sum of the
  log-probabilities over the columns `j ≠ i` carrying row `i`'s label; the number of columns carrying that label
  (the diagonal included); the row's loss, minus the one sum over the other; and the mean of the rows' losses.
  The row maximum is the fold of `max` from `⊥` over the row, a sum over a row is a `Finset` sum over the column.
-/
import Idealize.ShloMosaic.PureOps.Ideal
import Mathlib.Data.EReal.Basic

noncomputable section

namespace Cert.SupCon

open Idealize.ShloMosaic

/-- The inverse temperature: `1 / D` for the rational `D = 13421773 / 67108864`. -/
def invT : EReal := ((67108864 / 13421773 : ℝ) : EReal)

variable (f : Fin 8192 → Fin 128 → EReal) (lab : Fin 8192 → BitVec 32)

/-- The scaled inner product of rows `i` and `j`. -/
def sim (i j : Fin 8192) : EReal := (∑ k : Fin 128, f i k * f j k) * invT

/-- The largest scaled inner product of row `i`: the fold of `max` from `⊥` over the columns. -/
def rowMax (i : Fin 8192) : EReal := (Finset.univ : Finset (Fin 8192)).fold max ⊥ (fun j => sim f i j)

/-- The similarity less its row's maximum. -/
def shifted (i j : Fin 8192) : EReal := sim f i j - rowMax f i

/-- Its exponential off the diagonal, zero on it. -/
def offDiagExp (i j : Fin 8192) : EReal := if i = j then 0 else Ideal.exp (shifted f i j)

/-- The softmax denominator of row `i`: the diagonal left out. -/
def denom (i : Fin 8192) : EReal := ∑ j : Fin 8192, offDiagExp f i j

/-- The log-probability of column `j` in row `i`. -/
def logProb (i j : Fin 8192) : EReal := shifted f i j - Ideal.log (denom f i)

/-- One where rows `i` and `j` carry the same label, zero elsewhere. -/
def sameLabel (i j : Fin 8192) : EReal := if lab i = lab j then 1 else 0

/-- The same off the diagonal, zero on it: the positives of row `i`. -/
def posMask (i j : Fin 8192) : EReal := if i = j then 0 else sameLabel lab i j

/-- The log-probabilities of row `i` summed over its positives. -/
def rowSum (i : Fin 8192) : EReal := ∑ j : Fin 8192, logProb f i j * posMask lab i j

/-- How many columns carry row `i`'s label, the diagonal included. -/
def count (i : Fin 8192) : EReal := ∑ j : Fin 8192, sameLabel lab i j

/-- Row `i`'s loss: minus the mean log-probability of its positives (the count taken with the diagonal). -/
def rowLoss (i : Fin 8192) : EReal := Ideal.div (0 - rowSum f lab i) (count lab i)

/-- The loss: the rows' losses summed and divided by the number of rows, held as the word of `8192.0`. -/
def loss : EReal := Ideal.div (0 + ∑ i : Fin 8192, rowLoss f lab i) (Ideal.ofBits .f32 0x46000000#32)

end Cert.SupCon

end
-- ==== Proof.PayOps.lean ====
/-
  The operations of the kernel's body that are NOT pointwise, each read at an index given by its coordinates.
  Layout: a vector of 128 lanes viewed as a column [128] → [128, 1]; a column spread over the 8192 columns
  [128, 1] → [128, 8192]. Contraction: the product of a [128, 128] block with a [128, 8192] block into the zero
  accumulator, at (r, c), is the sum over the 128 shared coordinates of the products. Reductions along the 8192 columns:
  a sum of a row is the finite sum over the columns, a maximum of a row the fold of max from ⊥ over the columns.
  Words: the row number g · 128 + r, computed on 32 bits, equals the column number c exactly when the naturals are
  equal (g < 64, so nothing wraps); a one-bit word widened to 32 bits and converted to a float is 1 or 0; the
  named scalar is the specification's inverse temperature.
-/
import proofs.«168313_j43267500540145_2_alg».proof.Proof.Spec
import proofs.«168313_j43267500540145_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

noncomputable section

namespace Cert.SupCon.Pay

open Idealize.ShloMosaic Idealize.ShloMosaic.ValueIdx Cert.KernelIdeal Cert.KernelIdeal.Gen

/-! ## Layout -/

section Layout
variable {α : Type}

/-- A vector of 128 lanes viewed as a column reads, at (r, 0), lane r. -/
theorem cast_col (x : S128.Idx → α) (h : S128.ShapeCasts S128x1) (r : Fin 128) (z : Fin 1) :
    shapeCast S128x1 x h (ix2 r z) = x (ix1 r) :=
  shapeCast_apply x h _ _ (by
    have hz : z.val = 0 := by omega
    rw [Shape.rowMajor_val_two, Shape.rowMajor_val_one]
    show r.val = r.val * 1 + z.val
    rw [hz, Nat.mul_one, Nat.add_zero])

/-- A column spread over 8192 columns reads, at (r, c), the column's row r. -/
theorem bcast_col (x : S128x1.Idx → α) (h : S128x1.Broadcasts S128x8192) (r : Fin 128) (c : Fin 8192) :
    broadcastTo S128x8192 x h (ix2 r c) = x (ix2 r (0 : Fin 1)) := by
  refine broadcastTo_apply x h (ix2 r c) (ix2 r (0 : Fin 1)) fun ax => ?_
  match ax with
  | ⟨0, _⟩ =>
    show r.val = if (128 : Nat) = 1 then 0 else r.val
    rw [if_neg (by decide)]
  | ⟨1, _⟩ =>
    show (0 : Nat) = if (1 : Nat) = 1 then 0 else c.val
    rw [if_pos rfl]

end Layout

/-! ## The contraction -/

/-- The left operand's index at output index j and contraction index q: row (j 0), column q. -/
theorem lhs_0 (j : S128x8192.Idx) (q : dot_S128x128_S128x8192_S128x8192_1_0_0_1_n_n.contr.Idx) :
    (dot_S128x128_S128x8192_S128x8192_1_0_0_1_n_n.lhsIdx j q 0).val = (j 0).val := by
  unfold DotDims.lhsIdx
  rw [dif_neg (show ¬(0 : Fin S128x128.rank) ∈ dot_S128x128_S128x8192_S128x8192_1_0_0_1_n_n.lhsBatch by decide),
    dif_pos (show (0 : Fin S128x128.rank) ∈ dot_S128x128_S128x8192_S128x8192_1_0_0_1_n_n.lhsNonContracting by decide)]
  rfl
theorem lhs_1 (j : S128x8192.Idx) (q : dot_S128x128_S128x8192_S128x8192_1_0_0_1_n_n.contr.Idx) :
    (dot_S128x128_S128x8192_S128x8192_1_0_0_1_n_n.lhsIdx j q 1).val = (q ⟨0, by decide⟩).val :=
  dot_S128x128_S128x8192_S128x8192_1_0_0_1_n_n.lhsIdx_val_of_single rfl j q
/-- The right operand's index: row q, column (j 1). -/
theorem rhs_0 (j : S128x8192.Idx) (q : dot_S128x128_S128x8192_S128x8192_1_0_0_1_n_n.contr.Idx) :
    (dot_S128x128_S128x8192_S128x8192_1_0_0_1_n_n.rhsIdx j q 0).val = (q ⟨0, by decide⟩).val :=
  dot_S128x128_S128x8192_S128x8192_1_0_0_1_n_n.rhsIdx_val_of_single rfl j q
theorem rhs_1 (j : S128x8192.Idx) (q : dot_S128x128_S128x8192_S128x8192_1_0_0_1_n_n.contr.Idx) :
    (dot_S128x128_S128x8192_S128x8192_1_0_0_1_n_n.rhsIdx j q 1).val = (j 1).val := by
  unfold DotDims.rhsIdx
  rw [dif_neg (show ¬(1 : Fin S128x8192.rank) ∈ dot_S128x128_S128x8192_S128x8192_1_0_0_1_n_n.rhsBatch by decide),
    dif_pos (show (1 : Fin S128x8192.rank) ∈ dot_S128x128_S128x8192_S128x8192_1_0_0_1_n_n.rhsNonContracting by decide)]
  rfl

/-- The product of the [128, 128] block with the [128, 8192] block into the zero accumulator, at (r, c): the sum
    over the shared coordinate of the products. -/
theorem matmul_ix (a : FVec Ideal S128x128 .bf16) (b : FVec Ideal S128x8192 .bf16) (r : Fin 128) (c : Fin 8192) :
    matmul (F := Ideal) dot_S128x128_S128x8192_S128x8192_1_0_0_1_n_n none a b (constant (F := Ideal) S128x8192 .f32 0x00000000#32) (ix2 r c)
      = ∑ k : Fin 128, a (ix2 r k) * b (ix2 k c) := by
  simp only [matmul]
  rw [Ideal.matmul_constant_zero_apply,
    ← Equiv.sum_comp (contrEquiv1 dot_S128x128_S128x8192_S128x8192_1_0_0_1_n_n 128 rfl rfl).symm]
  refine Finset.sum_congr rfl fun k _ => ?_
  have hk := contrEquiv1_symm_val dot_S128x128_S128x8192_S128x8192_1_0_0_1_n_n 128 rfl rfl k
  have el : dot_S128x128_S128x8192_S128x8192_1_0_0_1_n_n.lhsIdx (ix2 r c)
      ((contrEquiv1 dot_S128x128_S128x8192_S128x8192_1_0_0_1_n_n 128 rfl rfl).symm k) = ix2 r k :=
    funext fun ax => Fin.ext (by
      match ax with
      | ⟨0, _⟩ => exact lhs_0 _ _
      | ⟨1, _⟩ => exact (lhs_1 _ _).trans hk)
  have er : dot_S128x128_S128x8192_S128x8192_1_0_0_1_n_n.rhsIdx (ix2 r c)
      ((contrEquiv1 dot_S128x128_S128x8192_S128x8192_1_0_0_1_n_n 128 rfl rfl).symm k) = ix2 k c :=
    funext fun ax => Fin.ext (by
      match ax with
      | ⟨0, _⟩ => exact (rhs_0 _ _).trans hk
      | ⟨1, _⟩ => exact rhs_1 _ _)
  rw [el, er]

/-! ## Reductions along the columns -/

/-- The index of a [128, 8192] block over lane r with column c inserted is (r, c). -/
theorem lift_ix (h : S128x8192.Reduces [1] S128) (r : Fin 128) (c : Fin 8192) : h.lift (ix1 r) c = ix2 r c :=
  funext fun ax => match ax with | ⟨0, _⟩ => rfl | ⟨1, _⟩ => rfl

/-- A sum along the columns, at lane r: the finite sum of row r. -/
theorem sum_lanes (src : FVec Ideal S128x8192 .f32) (h : S128x8192.Reduces [1] S128) (hφ : FKind.Formats .f32)
    (hacc : (0x00000000#32 : BitVec 32) = 0x00000000#32) (r : Fin 128) :
    multiReduction (F := Ideal) .add [1] S128 src 0x00000000#32 h hφ hacc (ix1 r) = ∑ c : Fin 8192, src (ix2 r c) := by
  refine (Ideal.multiReduction_add_single src 0x00000000#32 h hφ hacc (ix1 r)).trans ?_
  exact Finset.sum_congr rfl fun c _ => congrArg src (lift_ix h r c)

/-- The word of -∞ denotes ⊥. -/
theorem ofBits_neg_inf : Ideal.ofBits .f32 0xFF800000#32 = ⊥ := by simp [Ideal.ofBits, Ideal.ieee]

/-- A maximum along the columns, at lane r: the fold of max from ⊥ over row r. -/
theorem max_lanes (src : FVec Ideal S128x8192 .f32) (h : S128x8192.Reduces [1] S128) (hφ : FKind.Formats .f32)
    (hacc : (0xFF800000#32 : BitVec 32) = 0xFF800000#32) (r : Fin 128) :
    multiReduction (F := Ideal) .maximumf [1] S128 src 0xFF800000#32 h hφ hacc (ix1 r)
      = (Finset.univ : Finset (Fin 8192)).fold max (⊥ : EReal) (fun c => src (ix2 r c)) := by
  refine (Ideal.multiReduction_maximumf_single src 0xFF800000#32 h hφ hacc (ix1 r)).trans ?_
  have e2 : (src ∘ h.lift (ix1 r)) = fun c : Fin 8192 => src (ix2 r c) := funext fun c => congrArg src (lift_ix h r c)
  rw [e2, Ideal.ofBits_def, ofBits_neg_inf]
  rfl

/-! ## Words -/

/-- The row number g · 128 + r on 32 bits meets the column number c exactly when the naturals are equal. -/
theorem diag_word (g : Nat) (hg : g < 64) (r : Fin 128) (c : Fin 8192) :
    IntOp.cmpi .eq (IntOp.addi (Scalar.muli (BitVec.ofNat 32 g) 128#32) (BitVec.ofNat 32 r.val)) (BitVec.ofNat 32 c.val)
      = if g * 128 + r.val = c.val then 1#1 else 0#1 := by
  have hr := r.isLt
  have hc := c.isLt
  have e : IntOp.addi (Scalar.muli (BitVec.ofNat 32 g) 128#32) (BitVec.ofNat 32 r.val) = BitVec.ofNat 32 (g * 128 + r.val) := by
    apply BitVec.eq_of_toNat_eq
    simp only [IntOp.addi, Scalar.muli, IntOp.muli, BitVec.toNat_add, BitVec.toNat_mul, BitVec.toNat_ofNat]
    omega
  rw [e]
  unfold IntOp.cmpi
  by_cases hd : g * 128 + r.val = c.val
  · rw [if_pos hd, hd]; simp
  · rw [if_neg hd]
    have hne : BitVec.ofNat 32 (g * 128 + r.val) ≠ BitVec.ofNat 32 c.val := fun hh => hd (by
      have := congrArg BitVec.toNat hh
      simp only [BitVec.toNat_ofNat] at this
      omega)
    rw [show (BitVec.ofNat 32 (g * 128 + r.val) == BitVec.ofNat 32 c.val) = false from beq_eq_false_iff_ne.mpr hne]
    rfl

/-- A one-bit word widened to 32 bits and converted to a float is 1 where the bit is set, else 0. -/
theorem sitofp_bit (b : BitVec 1) :
    FloatOps.sitofp (F := Ideal) .f32 (b.setWidth 32) = if b = 1#1 then (1 : EReal) else 0 := by
  show (((b.setWidth 32).toInt : ℝ) : EReal) = _
  rcases BitVec.eq_zero_or_eq_one b with h | h <;> subst h
  · rw [if_neg (by decide)]; simp
  · rw [if_pos rfl]; simp

/-- The named scalar is the specification's inverse temperature. -/
theorem named_invT : Named.named (F := Ideal) κ "inv_temperature" (φ := .f32) 0x40A00000#32 = Cert.SupCon.invT :=
  IdealRules.named_const.ideal_named_scalar _ _ _ _ rfl

end Cert.SupCon.Pay

end
-- ==== Proof.PayBody.lean ====
/-
  The kernel's row-sum payload as a composition of five blocks over VARIABLE inputs, each block read at an index:
  the scaled inner products; the test "this row is this column"; the products less their row maximum; those less
  the logarithm of the row's sum of exponentials off the diagonal; the label mask with the diagonal removed; and the
  row sums of log-probability times mask. The payload is that composition by unfolding, and the stored quotient is
  read at a row likewise.
-/
import proofs.«168313_j43267500540145_2_alg».proof.Proof.PayOps

noncomputable section

namespace Cert.SupCon.Pay

open Idealize.ShloMosaic Idealize.ShloMosaic.ValueIdx Cert.KernelIdeal Cert.KernelIdeal.Gen

/-! ## The blocks -/

/-- The scaled inner products of the 128 query rows with all 8192 rows. -/
def simBlock (q : Vec Ideal S128x128 .bf16) (k : Vec Ideal S8192x128 .bf16) : FVec Ideal S128x8192 .f32 :=
  mulf
    (matmul dot_S128x128_S128x8192_S128x8192_1_0_0_1_n_n none
      (shapeCast S128x128 q shapeCasts_S128x128_S128x128 : FVec Ideal S128x128 .bf16)
      (transpose S128x8192 [1, 0] (shapeCast S8192x128 k shapeCasts_S8192x128_S8192x128 : FVec Ideal S8192x128 .bf16)
        transposes_S8192x128_p1_0_S128x8192 : FVec Ideal S128x8192 .bf16)
      (constant S128x8192 .f32 0x00000000#32))
    (broadcast S128x8192 (Named.named κ "inv_temperature" 0x40A00000#32 : Ideal .f32))

/-- The one-bit test "global row number = column number" at grid point i. -/
def diagBlock (i : grid0.Coords) : IVec S128x8192 1 :=
  cmpi .eq
    (broadcastTo S128x8192
      (addi (broadcast S128x1 (Scalar.muli (BitVec.ofNat 32 (i 0).val) 128#32)) (iota .tc S128x1 32 [0] iota_S128x1_d0_w32))
      broadcasts_S128x1_S128x8192)
    (broadcastTo S128x8192 (iota .tc S1x8192 32 [1] iota_S1x8192_d1_w32) broadcasts_S1x8192_S128x8192)

/-- A block less its row maxima. -/
def shiftBlock (s : FVec Ideal S128x8192 .f32) : FVec Ideal S128x8192 .f32 :=
  subf s
    (broadcastTo S128x8192
      (shapeCast S128x1 (multiReduction .maximumf [1] S128 s 0xFF800000#32 reduces_S128x8192_S128 (.inl rfl) rfl) shapeCasts_S128_S128x1)
      broadcasts_S128x1_S128x8192)

/-- The shifted block less the logarithm of each row's sum of exponentials, the entries marked by d left out of the sum. -/
def logpBlock (s : FVec Ideal S128x8192 .f32) (d : IVec S128x8192 1) : FVec Ideal S128x8192 .f32 :=
  subf (shiftBlock s)
    (broadcastTo S128x8192
      (log
        (shapeCast S128x1
          (multiReduction .add [1] S128
            (select d (broadcast S128x8192 (Scalar.ofBits .f32 0x00000000#32 : Ideal .f32)) (exp (shiftBlock s)))
            0x00000000#32 reduces_S128x8192_S128 (.inl rfl) rfl)
          shapeCasts_S128_S128x1))
      broadcasts_S128x1_S128x8192)

/-- The mask m as floats, zero where d marks. -/
def maskBlock (d : IVec S128x8192 1) (m : IVec S128x8192 1) : FVec Ideal S128x8192 .f32 :=
  select d (broadcast S128x8192 (Scalar.ofBits .f32 0x00000000#32 : Ideal .f32)) (sitofp .f32 (extui 32 m natLt_1_32))

/-- The row sums of log-probability times mask, as a column. -/
def sumBlock (s : FVec Ideal S128x8192 .f32) (d : IVec S128x8192 1) (m : IVec S128x8192 1) : FVec Ideal S128x1 .f32 :=
  shapeCast S128x1
    (multiReduction .add [1] S128 (mulf (logpBlock s d) (maskBlock d m)) 0x00000000#32 reduces_S128x8192_S128 (.inl rfl) rfl)
    shapeCasts_S128_S128x1

/-- The kernel's row-sum payload is the composition of the blocks. -/
theorem pay3_eq (i : grid0.Coords) (q : Vec Ideal S128x128 .bf16) (k : Vec Ideal S8192x128 .bf16)
    (lr : Vec Ideal S128x1 .i32) (lc : Vec Ideal S1x8192 .i32) :
    k0_pay3 (F := Ideal) i q k lr lc = sumBlock (simBlock q k) (diagBlock i) (k0_pay2 (F := Ideal) lr lc) := rfl

/-! ## Each block at an index -/

/-- The zero word is the extended real zero. -/
theorem zero_word : (Scalar.ofBits .f32 0x00000000#32 : Ideal .f32) = (0 : EReal) := Ideal.ofBits_zero_f32

/-- The scaled inner products at (r, c). -/
theorem simBlock_apply (q : Vec Ideal S128x128 .bf16) (k : Vec Ideal S8192x128 .bf16) (r : Fin 128) (c : Fin 8192) :
    simBlock q k (ix2 r c) = (∑ j : Fin 128, (q (ix2 r j) : EReal) * (k (ix2 c j) : EReal)) * Cert.SupCon.invT := by
  unfold simBlock
  rw [mulf_apply, broadcast_apply, named_invT]
  refine congrArg (· * Cert.SupCon.invT) ?_
  refine (matmul_ix _ _ r c).trans ?_
  refine Finset.sum_congr rfl fun j _ => ?_
  rw [shapeCast_self, transpose_ix2_apply, shapeCast_self]

/-- The diagonal test at (r, c): set exactly when g · 128 + r = c. -/
theorem diagBlock_apply (i : grid0.Coords) (r : Fin 128) (c : Fin 8192) :
    diagBlock i (ix2 r c) = if (i 0).val * 128 + r.val = c.val then 1#1 else 0#1 := by
  unfold diagBlock
  show IntOp.cmpi .eq (broadcastTo S128x8192 _ broadcasts_S128x1_S128x8192 (ix2 r c))
      (broadcastTo S128x8192 _ broadcasts_S1x8192_S128x8192 (ix2 r c)) = _
  rw [bcast_col, broadcastTo_1b_ab_apply]
  show IntOp.cmpi .eq (IntOp.addi (Scalar.muli (BitVec.ofNat 32 (i 0).val) 128#32) (iota .tc S128x1 32 [0] iota_S128x1_d0_w32 (ix2 r (0 : Fin 1))))
      (iota .tc S1x8192 32 [1] iota_S1x8192_d1_w32 (ix2 (0 : Fin 1) c)) = _
  rw [iota_single_apply, iota_single_apply]
  exact diag_word (i 0).val (i 0).isLt r c

/-- A block less its row maxima, at (r, c). -/
theorem shiftBlock_apply (s : FVec Ideal S128x8192 .f32) (r : Fin 128) (c : Fin 8192) :
    shiftBlock s (ix2 r c) = s (ix2 r c) - (Finset.univ : Finset (Fin 8192)).fold max (⊥ : EReal) (fun c' => s (ix2 r c')) := by
  unfold shiftBlock
  rw [subf_apply, bcast_col, cast_col, max_lanes]

/-- The log-probabilities at (r, c). -/
theorem logpBlock_apply (s : FVec Ideal S128x8192 .f32) (d : IVec S128x8192 1) (r : Fin 128) (c : Fin 8192) :
    logpBlock s d (ix2 r c) = shiftBlock s (ix2 r c)
      - Ideal.log (∑ c' : Fin 8192, Scalar.select (d (ix2 r c')) (0 : EReal) (Ideal.exp (shiftBlock s (ix2 r c')))) := by
  unfold logpBlock
  rw [subf_apply, bcast_col]
  show _ - Ideal.log (shapeCast S128x1 _ shapeCasts_S128_S128x1 (ix2 r (0 : Fin 1))) = _
  rw [cast_col, sum_lanes]
  refine congrArg (fun x : EReal => shiftBlock s (ix2 r c) - Ideal.log x) (Finset.sum_congr rfl fun c' _ => ?_)
  rw [select_apply, broadcast_apply, zero_word]
  rfl

/-- The mask at (r, c). -/
theorem maskBlock_apply (d m : IVec S128x8192 1) (r : Fin 128) (c : Fin 8192) :
    maskBlock d m (ix2 r c) = Scalar.select (d (ix2 r c)) (0 : EReal) (if m (ix2 r c) = 1#1 then (1 : EReal) else 0) := by
  unfold maskBlock
  rw [select_apply, broadcast_apply, zero_word, sitofp_apply, extui_apply, sitofp_bit]

/-- The row sums at (r, 0). -/
theorem sumBlock_apply (s : FVec Ideal S128x8192 .f32) (d m : IVec S128x8192 1) (r : Fin 128) :
    sumBlock s d m (ix2 r (0 : Fin 1)) = ∑ c : Fin 8192, logpBlock s d (ix2 r c) * maskBlock d m (ix2 r c) := by
  unfold sumBlock
  rw [cast_col, sum_lanes]
  rfl

/-! ## The label mask and the stored quotient -/

/-- The label-equality bit at (r, c). -/
theorem pay2_apply (lr : Vec Ideal S128x1 .i32) (lc : Vec Ideal S1x8192 .i32) (r : Fin 128) (c : Fin 8192) :
    k0_pay2 (F := Ideal) lr lc (ix2 r c)
      = if (lr (ix2 r (0 : Fin 1)) : BitVec 32) = (lc (ix2 (0 : Fin 1) c) : BitVec 32) then 1#1 else 0#1 := by
  unfold k0_pay2
  show IntOp.cmpi .eq (broadcastTo S128x8192 _ broadcasts_S128x1_S128x8192 (ix2 r c))
      (broadcastTo S128x8192 _ broadcasts_S1x8192_S128x8192 (ix2 r c)) = _
  rw [bcast_col, broadcastTo_1b_ab_apply, shapeCast_self, shapeCast_self]
  unfold IntOp.cmpi
  by_cases h : (lr (ix2 r (0 : Fin 1)) : BitVec 32) = (lc (ix2 (0 : Fin 1) c) : BitVec 32)
  · rw [if_pos h, h]; simp
  · rw [if_neg h, show ((lr (ix2 r (0 : Fin 1)) : BitVec 32) == (lc (ix2 (0 : Fin 1) c) : BitVec 32)) = false from
      beq_eq_false_iff_ne.mpr h]
    rfl

/-- The widened label mask at (r, c) is the label-equality bit, widened. -/
theorem pay4_apply (lr : Vec Ideal S128x1 .i32) (lc : Vec Ideal S1x8192 .i32) (r : Fin 128) (c : Fin 8192) :
    k0_pay4 (F := Ideal) lr lc (ix2 r c) = (k0_pay2 (F := Ideal) lr lc (ix2 r c)).setWidth 32 := rfl

/-- The stored quotient at row r: minus the row sum, over the sum along the row of the widened mask as floats. -/
theorem pay1_apply (v41 : FVec Ideal S128x1 .f32) (v42 : IVec S128x8192 32) (r : Fin 128) :
    k0_pay1 (F := Ideal) v41 v42 (ix2 r (0 : Fin 1))
      = Ideal.div ((0 : EReal) - v41 (ix2 r (0 : Fin 1))) (∑ c : Fin 8192, FloatOps.sitofp (F := Ideal) .f32 (v42 (ix2 r c))) := by
  unfold k0_pay1
  show Ideal.div ((Scalar.ofBits .f32 0x00000000#32 : Ideal .f32) - v41 (ix2 r (0 : Fin 1)))
      (shapeCast S128x1 _ shapeCasts_S128_S128x1 (ix2 r (0 : Fin 1))) = _
  rw [zero_word, cast_col, sum_lanes]
  rfl

end Cert.SupCon.Pay

end
-- ==== Proof.PayIsSpec.lean ====
/-
  The kernel's payload at a row is the specification's row loss.
  At grid point i the body sees the block q of the 128 query rows (rows i · 128 + r of the feature matrix f), the whole
  matrix k, the column lr of those rows' labels and the row lc of all labels. Row r of what it stores is
  (0 − Σ_c logProb · posMask) / Σ_c sameLabel for the global row R = i · 128 + r: the scaled inner products are the
  similarities of row R, the row maximum their fold of max from ⊥, the 32-bit diagonal test is R = c, the masked sum of
  exponentials the softmax denominator without the diagonal, and the two label masks the specification's.
  No finiteness of the inputs is used: every step is an unfolding or a rewriting under a sum.
-/
import proofs.«168313_j43267500540145_2_alg».proof.Proof.PayBody

noncomputable section

namespace Cert.SupCon.Pay

open Idealize.ShloMosaic Idealize.ShloMosaic.ValueIdx Cert.KernelIdeal Cert.KernelIdeal.Gen Cert.SupCon

/-- The global number of row r of the block at grid point i: i · 128 + r, below 8192 since i < 64. -/
def row (i : grid0.Coords) (r : Fin 128) : Fin 8192 :=
  ⟨(i 0).val * 128 + r.val, by
    have h0 : (i 0).val < 64 := (i 0).isLt
    have h1 := r.isLt
    omega⟩

/-- Its value. -/
theorem row_val (i : grid0.Coords) (r : Fin 128) : (row i r).val = (i 0).val * 128 + r.val := rfl

/-- A select on a decided bit is the if-then-else on the decision. -/
theorem select_ite {α : Type} (p : Prop) [Decidable p] (a b : α) :
    Scalar.select (if p then 1#1 else 0#1) a b = if p then a else b := by
  by_cases h : p
  · rw [if_pos h, if_pos h]; exact select_one a b
  · rw [if_neg h, if_neg h]; exact select_zero a b

/-- Testing a decided bit against 1 is the decision. -/
theorem bit_ite (p : Prop) [Decidable p] :
    (if (if p then 1#1 else 0#1) = 1#1 then (1 : EReal) else 0) = if p then 1 else 0 := by
  by_cases h : p
  · rw [if_pos h, if_pos rfl, if_pos h]
  · rw [if_neg h, if_neg (by decide), if_neg h]

/-- THE PAYLOAD AT A ROW: what the kernel stores at row r of grid point i is the row loss of global row i · 128 + r. -/
theorem pay_is_rowLoss (i : grid0.Coords) (q : Vec Ideal S128x128 .bf16) (k : Vec Ideal S8192x128 .bf16)
    (lr : Vec Ideal S128x1 .i32) (lc : Vec Ideal S1x8192 .i32)
    (f : Fin 8192 → Fin 128 → EReal) (lab : Fin 8192 → BitVec 32)
    (hq : ∀ (r c : Fin 128), q (ix2 r c) = f (row i r) c)
    (hk : ∀ (j : Fin 8192) (c : Fin 128), k (ix2 j c) = f j c)
    (hlr : ∀ r : Fin 128, lr (ix2 r (0 : Fin 1)) = lab (row i r))
    (hlc : ∀ j : Fin 8192, lc (ix2 (0 : Fin 1) j) = lab j) (r : Fin 128) :
    k0_pay1 (F := Ideal) (k0_pay3 (F := Ideal) i q k lr lc) (k0_pay4 (F := Ideal) lr lc) (ix2 r (0 : Fin 1))
      = rowLoss f lab (row i r) := by
  -- the similarities of row R
  have hsim : ∀ c : Fin 8192, simBlock q k (ix2 r c) = sim f (row i r) c := fun c => by
    rw [simBlock_apply]
    exact congrArg (· * invT) (Finset.sum_congr rfl fun j _ => by rw [hq, hk])
  -- the diagonal test is R = c
  have hdiag : ∀ c : Fin 8192, diagBlock i (ix2 r c) = if row i r = c then 1#1 else 0#1 := fun c => by
    rw [diagBlock_apply]
    by_cases h : (i 0).val * 128 + r.val = c.val
    · rw [if_pos h, if_pos (Fin.ext h)]
    · rw [if_neg h, if_neg (fun e => h (congrArg Fin.val e))]
  -- the label-equality bit
  have hsame : ∀ c : Fin 8192, k0_pay2 (F := Ideal) lr lc (ix2 r c) = if lab (row i r) = lab c then 1#1 else 0#1 :=
    fun c => by rw [pay2_apply, hlr, hlc]
  -- the shifted similarities
  have hshift : ∀ c : Fin 8192, shiftBlock (simBlock q k) (ix2 r c) = shifted f (row i r) c := fun c => by
    rw [shiftBlock_apply, hsim c]
    exact congrArg (fun g => sim f (row i r) c - (Finset.univ : Finset (Fin 8192)).fold max (⊥ : EReal) g) (funext hsim)
  -- the exponentials off the diagonal
  have hoff : ∀ c : Fin 8192, Scalar.select (diagBlock i (ix2 r c)) (0 : EReal) (Ideal.exp (shiftBlock (simBlock q k) (ix2 r c)))
      = offDiagExp f (row i r) c := fun c => by
    rw [hdiag, hshift, select_ite]
    rfl
  -- the log-probabilities
  have hlogp : ∀ c : Fin 8192, logpBlock (simBlock q k) (diagBlock i) (ix2 r c) = logProb f (row i r) c := fun c => by
    rw [logpBlock_apply, hshift]
    exact congrArg (fun x => shifted f (row i r) c - Ideal.log x) (Finset.sum_congr rfl fun c' _ => hoff c')
  -- the positives' mask
  have hmask : ∀ c : Fin 8192, maskBlock (diagBlock i) (k0_pay2 (F := Ideal) lr lc) (ix2 r c) = posMask lab (row i r) c :=
    fun c => by
      rw [maskBlock_apply, hdiag, hsame, select_ite, bit_ite]
      rfl
  -- the count's summand
  have hcount : ∀ c : Fin 8192, FloatOps.sitofp (F := Ideal) .f32 (k0_pay4 (F := Ideal) lr lc (ix2 r c)) = sameLabel lab (row i r) c :=
    fun c => by
      rw [pay4_apply, sitofp_bit, hsame, bit_ite]
      rfl
  rw [pay1_apply, pay3_eq, sumBlock_apply]
  exact congrArg₂ Ideal.div
    (congrArg (fun x => (0 : EReal) - x) (Finset.sum_congr rfl fun c _ => by rw [hlogp, hmask]))
    (Finset.sum_congr rfl fun c _ => hcount c)

end Cert.SupCon.Pay

end
-- ==== Proof.KernelValue.lean ====
/-
  What the idealized kernel's program computes, read off its run.

  The region's arrays at its entry are the arguments re-laid: the feature matrix narrowed (the identity on the extended
  reals), the labels as a column and as a row. At grid point `t` the query block is rows `128 t … 128 t + 127` of the
  feature matrix, the key block the whole matrix, the row labels those rows' labels, the column labels all of them; so
  the block the point writes back is, row by row, the specification's row loss of row `128 t + r`. The 64 blocks
  tile the loss array, which therefore ends holding every row's loss; the host operations after the region sum it and
  divide by the word of 8192: the specification's loss.
-/
import proofs.«168313_j43267500540145_2_alg».proof.Proof.RegionIdeal
import proofs.«168313_j43267500540145_2_alg».proof.Proof.PayIsSpec
import Idealize.ShloMosaic.Lib.Pipeline.Value
import Idealize.ShloMosaic.Lib.ValueIdx
import Idealize.ShloMosaic.PureOps.Ideal.Laws
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.SupCon.KVal

open Cert.KernelIdeal Cert.KernelIdeal.Gen Cert.KernelIdeal.Region Cert.SupCon Cert.SupCon.Pay ValueIdx

variable (m : (ℓ : Loc nD τ sig) → Buf (Elt Ideal) ℓ) (ρ : Dev nD → PrngReg)

/-- The feature matrix and the label vector of core `c`'s argument arrays, by coordinates. -/
def feat (c : Dev nD) : Fin 8192 → Fin 128 → EReal :=
  fun i k => (m ((c : Thread nD τ).loc main_arg0) : S8192x128.Idx → EReal) (ix2 i k)
def labs (c : Dev nD) : Fin 8192 → BitVec 32 :=
  fun i => (m ((c : Thread nD τ).loc main_arg1) : S8192.Idx → BitVec 32) (ix1 i)

theorem hz : (![0, 0] : Fin 2 → Nat) = fun _ => 0 := funext fun a => by fin_cases a <;> rfl

/-! ## The region's arrays at its entry -/

/-- The narrowed feature matrix is the feature matrix. -/
theorem entry_feat (c : Dev nD) (i : Fin 8192) (k : Fin 128) :
    (V1 m ρ c main_v2 : S8192x128.Idx → EReal) (ix2 i k) = feat m c i k := by
  dsimp only [V1, W1, W0, hostOps0]
  after_results
  rfl

/-- The labels as a column: row `i` holds label `i`. -/
theorem entry_lrow (c : Dev nD) (i : Fin 8192) (z : Fin 1) :
    (V1 m ρ c main_v0 : S8192x1.Idx → BitVec 32) (ix2 i z) = labs m c i := by
  dsimp only [V1, W1, W0, hostOps0]
  after_results
  show shapeCast S8192x1 (m ((c : Thread nD τ).loc main_arg1) : S8192.Idx → BitVec 32) shapeCasts_S8192_S8192x1 (ix2 i z) = _
  exact shapeCast_apply _ _ _ (ix1 i) (by
    have hz : z.val = 0 := by omega
    rw [Shape.rowMajor_val_two, Shape.rowMajor_val_one]
    show i.val = i.val * 1 + z.val
    omega)

/-- The labels as a row: column `j` holds label `j`. -/
theorem entry_lcol (c : Dev nD) (z : Fin 1) (j : Fin 8192) :
    (V1 m ρ c main_v1 : S1x8192.Idx → BitVec 32) (ix2 z j) = labs m c j := by
  dsimp only [V1, W1, W0, hostOps0]
  after_results
  show shapeCast S1x8192 (m ((c : Thread nD τ).loc main_arg1) : S8192.Idx → BitVec 32) shapeCasts_S8192_S1x8192 (ix2 z j) = _
  exact shapeCast_apply _ _ _ (ix1 j) (by
    have hz : z.val = 0 := by omega
    rw [Shape.rowMajor_val_two, Shape.rowMajor_val_one]
    show j.val = z.val * 8192 + j.val
    omega)

/-! ## The windows' blocks at a point -/

/-- The printed index maps over the grid: the query, row-label and loss windows move with the point along the rows;
    the key and column-label windows stay; the point's one coordinate is its number. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ ((grid0.coords t) 0).val = t.val :=
  (by decide +kernel : ∀ t : Fin grid0.N, _)

/-- Row `r` of the query block at point `t` is row `128 t + r` of the feature matrix. -/
theorem blk_query (c : Dev nD) (t : Fin cfg0.N) (r k : Fin 128) :
    (iblk (V1 m ρ) c 0 t : Vec Ideal S128x128 .bf16) (ix2 r k) = feat m c (row (grid0.coords t) r) k := by
  obtain ⟨e00, e01, -, -, -, -, -, -, -, -, eg⟩ := idx_facts t
  unfold iblk
  rw [View.read_apply]
  refine Eq.trans ?_ (entry_feat m ρ c (row (grid0.coords t) r) k)
  show (V1 m ρ c main_v2 : S8192x128.Idx → EReal) _ = (V1 m ρ c main_v2 : S8192x128.Idx → EReal) _
  congr 1
  funext a
  apply Fin.ext
  match a with
  | ⟨0, _⟩ => show win0_0.index t (0 : Fin 2) * 128 + 1 * r.val = ((grid0.coords t) 0).val * 128 + r.val; rw [e00, eg]; omega
  | ⟨1, _⟩ => show win0_0.index t (1 : Fin 2) * 128 + 1 * k.val = k.val; rw [e01]; omega

/-- The key block at every point is the whole feature matrix. -/
theorem blk_key (c : Dev nD) (t : Fin cfg0.N) (j : Fin 8192) (k : Fin 128) :
    (iblk (V1 m ρ) c 1 t : Vec Ideal S8192x128 .bf16) (ix2 j k) = feat m c j k := by
  obtain ⟨-, -, e10, e11, -⟩ := idx_facts t
  unfold iblk
  rw [View.read_apply]
  refine Eq.trans ?_ (entry_feat m ρ c j k)
  show (V1 m ρ c main_v2 : S8192x128.Idx → EReal) _ = (V1 m ρ c main_v2 : S8192x128.Idx → EReal) _
  congr 1
  funext a
  apply Fin.ext
  match a with
  | ⟨0, _⟩ => show win0_1.index t (0 : Fin 2) * 8192 + 1 * j.val = j.val; rw [e10]; omega
  | ⟨1, _⟩ => show win0_1.index t (1 : Fin 2) * 128 + 1 * k.val = k.val; rw [e11]; omega

/-- Row `r` of the row-label block at point `t` is label `128 t + r`. -/
theorem blk_lrow (c : Dev nD) (t : Fin cfg0.N) (r : Fin 128) :
    (iblk (V1 m ρ) c 2 t : Vec Ideal S128x1 .i32) (ix2 r (0 : Fin 1)) = labs m c (row (grid0.coords t) r) := by
  obtain ⟨-, -, -, -, e20, e21, -, -, -, -, eg⟩ := idx_facts t
  unfold iblk
  rw [View.read_apply]
  refine Eq.trans ?_ (entry_lrow m ρ c (row (grid0.coords t) r) (0 : Fin 1))
  show (V1 m ρ c main_v0 : S8192x1.Idx → BitVec 32) _ = (V1 m ρ c main_v0 : S8192x1.Idx → BitVec 32) _
  congr 1
  funext a
  apply Fin.ext
  match a with
  | ⟨0, _⟩ => show win0_2.index t (0 : Fin 2) * 128 + 1 * r.val = ((grid0.coords t) 0).val * 128 + r.val; rw [e20, eg]; omega
  | ⟨1, _⟩ => show win0_2.index t (1 : Fin 2) * 1 + 1 * 0 = 0; rw [e21]

/-- The column-label block at every point is all the labels. -/
theorem blk_lcol (c : Dev nD) (t : Fin cfg0.N) (j : Fin 8192) :
    (iblk (V1 m ρ) c 3 t : Vec Ideal S1x8192 .i32) (ix2 (0 : Fin 1) j) = labs m c j := by
  obtain ⟨-, -, -, -, -, -, e30, e31, -⟩ := idx_facts t
  unfold iblk
  rw [View.read_apply]
  refine Eq.trans ?_ (entry_lcol m ρ c (0 : Fin 1) j)
  show (V1 m ρ c main_v1 : S1x8192.Idx → BitVec 32) _ = (V1 m ρ c main_v1 : S1x8192.Idx → BitVec 32) _
  congr 1
  funext a
  apply Fin.ext
  match a with
  | ⟨0, _⟩ => show win0_3.index t (0 : Fin 2) * 1 + 1 * 0 = 0; rw [e30]
  | ⟨1, _⟩ => show win0_3.index t (1 : Fin 2) * 8192 + 1 * j.val = j.val; rw [e31]; omega

/-! ## The loss array after the region -/

/-- Every row's loss, as a column. -/
def lossCol (c : Dev nD) : S8192x1.Idx → EReal := fun i => rowLoss (feat m c) (labs m c) (i 0)

/-- The block the body stores, read at row `r`: the row loss of the query block's row `r`, whatever the grid
    point, for input blocks that are the feature matrix's and the label vector's rows as stated. -/
theorem out_apply (i : grid0.Coords) (x0 : Vec Ideal S128x128 .bf16) (x1 : Vec Ideal S8192x128 .bf16)
    (x2 : Vec Ideal S128x1 .i32) (x3 : Vec Ideal S1x8192 .i32) (f : Fin 8192 → Fin 128 → EReal) (lab : Fin 8192 → BitVec 32)
    (hq : ∀ (r c : Fin 128), x0 (ix2 r c) = f (row i r) c) (hk : ∀ (j : Fin 8192) (c : Fin 128), x1 (ix2 j c) = f j c)
    (hlr : ∀ r : Fin 128, x2 (ix2 r (0 : Fin 1)) = lab (row i r)) (hlc : ∀ j : Fin 8192, x3 (ix2 (0 : Fin 1) j) = lab j)
    (y : S128x1.Idx) :
    outBlock (F := Ideal) i x0 x1 x2 x3 y = rowLoss f lab (row i (y 0)) := by
  obtain ⟨r, z, rfl⟩ : ∃ (r : Fin 128) (z : Fin 1), y = ix2 r z := ⟨y 0, y 1, eq_ix2 y⟩
  obtain rfl : z = 0 := Subsingleton.elim _ _
  unfold outBlock
  rw [View.canon_unit_zero hz]
  simp only [View.ld_unit_zero (S := S128x128) hz, View.ld_unit_zero (S := S8192x128) hz, View.ld_unit_zero (S := S128x1) hz,
    View.ld_unit_zero (S := S1x8192) hz]
  exact pay_is_rowLoss i x0 x1 x2 x3 f lab hq hk hlr hlc r

set_option maxHeartbeats 400000 in
/-- What point `t` writes back is block `t` of the column of row losses. -/
theorem flushed_eq (c : Dev nD) (t : Fin cfg0.N) :
    (dat (V1 m ρ) c).flushed 4 t = ((cfg0.win 4).blk t).view.read (Elt Ideal) (lossCol m c) := by
  show (cfg0.win 4).cut (grid0.coords t) ((dat (V1 m ρ) c).after 4 t) = _
  rw [after_4]
  obtain ⟨-, -, -, -, -, -, -, -, e40, e41, eg⟩ := idx_facts t
  funext y
  show outBlock (F := Ideal) (grid0.coords t) (iblk (V1 m ρ) c 0 t) (iblk (V1 m ρ) c 1 t) (iblk (V1 m ρ) c 2 t) (iblk (V1 m ρ) c 3 t)
      ((cfg0.win 4).xinj (grid0.coords t) y) = _
  have h := out_apply (grid0.coords t) (iblk (V1 m ρ) c 0 t) (iblk (V1 m ρ) c 1 t) (iblk (V1 m ρ) c 2 t) (iblk (V1 m ρ) c 3 t)
    (feat m c) (labs m c) (blk_query m ρ c t) (blk_key m ρ c t) (blk_lrow m ρ c t) (blk_lcol m ρ c t)
    ((cfg0.win 4).xinj (grid0.coords t) y)
  refine h.trans ?_
  rw [View.read_apply]
  show rowLoss (feat m c) (labs m c) (row (grid0.coords t) ((cfg0.win 4).xinj (grid0.coords t) y 0))
    = rowLoss (feat m c) (labs m c) ((((cfg0.win 4).blk t).view.emb y) 0)
  refine congrArg (rowLoss (feat m c) (labs m c)) (Fin.ext ?_)
  show ((grid0.coords t) 0).val * 128 + (y 0).val = win0_4.index t (0 : Fin 2) * 128 + 1 * (y 0).val
  rw [e40, eg]; omega

/-- Every row of the loss array lies in some point's block. -/
theorem idx_onto : ∀ q : Fin 64, ∃ t : Fin cfg0.N, win0_4.index t = ![q.val, 0] :=
  (by decide +kernel : ∀ q : Fin 64, ∃ t : Fin grid0.N, win0_4.index t = ![q.val, 0])

theorem mem_blk (t : Fin cfg0.N) (i : S8192x1.Idx) :
    i ∈ ((cfg0.win 4).blk t).view.set ↔ ∀ a : Fin 2, win0_4.index t a * S128x1.size a ≤ (i a).val ∧ (i a).val < win0_4.index t a * S128x1.size a + S128x1.size a := by
  show i ∈ ((View.whole main_v3).slice (win0_4.rect t)).set ↔ _
  rw [View.set_slice_whole, Rect.mem_set_unit]
  exact Iff.rfl

theorem cover (i : S8192x1.Idx) : ∃ t : Fin cfg0.N, (cfg0.win 4).flush t = true ∧ i ∈ ((cfg0.win 4).blk t).view.set := by
  have hi0 : (i 0).val < 8192 := (i 0).isLt
  have hi1 : (i 1).val < 1 := (i 1).isLt
  obtain ⟨t, ht⟩ := idx_onto ⟨(i 0).val / 128, by omega⟩
  have q0 : win0_4.index t (0 : Fin 2) = (i 0).val / 128 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 128 ≤ (i 0).val ∧ (i 0).val < win0_4.index t (0 : Fin 2) * 128 + 128; omega
  | ⟨1, _⟩ => show win0_4.index t (1 : Fin 2) * 1 ≤ (i 1).val ∧ (i 1).val < win0_4.index t (1 : Fin 2) * 1 + 1; omega

/-- The loss array ends holding every row's loss. -/
theorem final (c : Dev nD) : (dat (V1 m ρ) c).arrAt 4 cfg0.N = lossCol m c :=
  (dat (V1 m ρ) c).arrAt_eq_of_cover 4 (lossCol m c) (fun t _ => flushed_eq m ρ c t) cover

/-! ## The host operations after the region: the mean -/

/-- The sum of a column of 8192 entries from the zero word, divided by the word of 8192. -/
theorem tail_apply (y : S8192x1.Idx → EReal) (j : S_.Idx) :
    Host.divf (F := Ideal) (Host.reduceAdd (F := Ideal) y (constant (F := Ideal) S_ .f32 0x00000000#32) reducesTo_S8192x1_S_d0_1 h_S_)
        (constant (F := Ideal) S_ .f32 0x46000000#32) j
      = Ideal.div (0 + ∑ i : Fin 8192, y (ix2 i (0 : Fin 1))) (Ideal.ofBits .f32 0x46000000#32) := by
  have hs : Host.reduceAdd (F := Ideal) y (constant (F := Ideal) S_ .f32 0x00000000#32) reducesTo_S8192x1_S_d0_1 h_S_ j
      = (constant (F := Ideal) S_ .f32 0x00000000#32) (Shape.Idx.first h_S_) + ∑ i : S8192x1.Idx, y i := by
    simp only [Host.reduceAdd, Ideal.hostReduceAdd_def]
    exact Ideal.hostReduceAdd_total reducesTo_S8192x1_S_d0_1 (fun b => b.elim0) y _ j
  show FloatOps.hostDivf (Host.reduceAdd (F := Ideal) y (constant (F := Ideal) S_ .f32 0x00000000#32) reducesTo_S8192x1_S_d0_1 h_S_ j)
      (FloatOps.ofBits .f32 0x46000000#32) = _
  rw [hs, sum_idx2]
  show Ideal.div (Ideal.ofBits .f32 0x00000000#32 + ∑ a : Fin 8192, ∑ b : Fin 1, y (ix2 a b)) (Ideal.ofBits .f32 0x46000000#32) = _
  rw [Ideal.ofBits_zero_f32]
  simp only [Fin.sum_univ_one]

/-- The result buffer after the run holds the specification's loss of the argument arrays. -/
theorem result_eq (c : Dev nD) :
    (W3 m ρ c (Proc.devRef .tc main_v5) : S_.Idx → EReal) = fun _ => loss (feat m c) (labs m c) := by
  funext j
  show StableHlo.after hostOps1 _ (Proc.devRef .tc main_v5) j = _
  after_results
  rw [W2_out, final]
  exact tail_apply (lossCol m c) j

end Cert.SupCon.KVal

end
-- ==== Proof.RefIsSpec.lean ====
/-
  The reference program computes the specification.

  The reference is the plain formula of the supervised-contrastive loss: the Gram matrix of the features divided by the
  temperature `D`, each row less its maximum, the exponentials with the diagonal masked out by the factor `1 - δ`
  (`δ` the 0/1 indicator of the diagonal), their row sums, the log-probabilities, those masked by `1 - δ` and by the
  0/1 indicator of equal labels and summed over the row, divided by the number of equal labels, negated, and averaged.
  Read on the extended reals, stage by stage and index by index, each array of the reference is the function of
  `Spec.lean` of the same name; the arrangements differ only by laws that hold on every extended real:
  `x / D = x * (1 / D)` for the nonzero real `D`, `x * 0 = 0`, `x * 1 = x`, `1 - 1 = 0`, `1 - 0 = 1`, `0 + x = x`, and
  `-(a / b) = (0 - a) / b` for `b ≠ 0` (the number of equal labels is at least one: the diagonal).
-/
import proofs.«168313_j43267500540145_2_alg».proof.Proof.Spec
import proofs.«168313_j43267500540145_2_alg».proof.Proof.Gen.ReferenceIdeal.Read

noncomputable section

namespace Cert.SupCon.Ref

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The constants -/

/-- The word of the temperature denotes the rational `13421773 / 2^26`. -/
theorem ofBits_D : Ideal.ofBits .f32 0x3E4CCCCD#32 = ((13421773 / 67108864 : ℝ) : EReal) := by
  simp [Ideal.ofBits, Ideal.ieee, -EReal.coe_mul]; norm_num

/-- The word of `-∞` denotes `⊥`. -/
theorem ofBits_negInf : Ideal.ofBits .f32 0xFF800000#32 = ⊥ := by
  simp [Ideal.ofBits, Ideal.ieee]

/-- The word of `1.0` denotes `1`. -/
theorem ofBits_one : Ideal.ofBits .f32 0x3F800000#32 = 1 := by
  simp [Ideal.ofBits, Ideal.ieee, -EReal.coe_mul]; norm_num

variable (x0 : (⟨S8192x128, .f32⟩ : BufTy).Contents (Elt Ideal)) (x1 : (⟨S8192, .i32⟩ : BufTy).Contents (Elt Ideal))

/-- The feature matrix by its two coordinates. -/
abbrev feat : Fin 8192 → Fin 128 → EReal := fun i k => x0 (ix2 i k)
/-- The label vector by its coordinate. -/
abbrev labl : Fin 8192 → BitVec 32 := fun i => x1 (ix1 i)

/-! ## The similarities -/

/-- The Gram matrix at `(i, j)`: the inner product of rows `i` and `j`. -/
theorem v7_at (i j : Fin 8192) :
    val_main_v7 (F := Ideal) x0 (ix2 i j) = ∑ k : Fin 128, x0 (ix2 i k) * x0 (ix2 j k) := by
  rw [val_main_v7_apply]
  refine Finset.sum_congr rfl fun k _ => ?_
  rw [val_main_v6_apply]
  have el : lidx_main_v7 (ix2 i j) k = ix2 i k :=
    funext fun a => Fin.ext (by match a with | ⟨0, _⟩ => rfl | ⟨1, _⟩ => rfl)
  have er : idx_main_v6 (ridx_main_v7 (ix2 i j) k) = ix2 j k :=
    funext fun a => Fin.ext (by match a with | ⟨0, _⟩ => rfl | ⟨1, _⟩ => rfl)
  rw [el, er]

/-- Divided by the temperature: the scaled inner product. -/
theorem v9_at (i j : Fin 8192) :
    val_main_v9 (F := Ideal) x0 (ix2 i j) = sim (feat x0) i j := by
  rw [val_main_v9_apply, v7_at, val_main_v8_apply, val_main_cst_apply]
  show Ideal.div _ (Ideal.ofBits .f32 0x3E4CCCCD#32) = _
  rw [ofBits_D, Ideal.div_coe (by norm_num)]
  unfold sim invT
  congr 2
  norm_num

/-! ## The row maximum and the shifted similarities -/

/-- The source index over row `i` with column `j` inserted on the reduced axis is `(i, j)`. -/
theorem lift_row (h : S8192x8192.Reduces [1] S8192) (i j : Fin 8192) : h.lift (ix1 i) j = ix2 i j :=
  funext fun a => Fin.ext (by match a with | ⟨0, _⟩ => rfl | ⟨1, _⟩ => rfl)

/-- The row maximum: the fold of `max` from `⊥` over the row's similarities. -/
theorem v10_at (i : Fin 8192) : val_main_v10 (F := Ideal) x0 (ix1 i) = rowMax (feat x0) i := by
  have h : S8192x8192.Reduces [1] S8192 := by decide
  unfold val_main_v10
  rw [Host.reduce_eq_fold_single _ _ _ reducesTo_S8192x8192_S8192_d1 h h_S_ (ix1 i), val_main_cst_0_apply]
  have hf : (val_main_v9 (F := Ideal) x0 ∘ h.lift (ix1 i)) = fun j : Fin 8192 => sim (feat x0) i j :=
    funext fun j : Fin 8192 => (congrArg (val_main_v9 (F := Ideal) x0) (lift_row h i j)).trans (v9_at x0 i j)
  rw [hf]
  show Finset.fold max (Ideal.ofBits .f32 0xFF800000#32) _ _ = _
  rw [ofBits_negInf]
  rfl

/-- The similarity less its row's maximum. -/
theorem v13_at (i j : Fin 8192) : val_main_v13 (F := Ideal) x0 (ix2 i j) = shifted (feat x0) i j := by
  rw [val_main_v13_apply, val_main_v12_apply, val_main_v11_apply, v9_at]
  have e : idx_main_v11 (idx_main_v12 (ix2 i j)) = ix1 i :=
    funext fun a => Fin.ext (by match a with | ⟨0, _⟩ => rfl)
  rw [e, v10_at]
  rfl

/-! ## The diagonal mask -/

/-- Row and column numbers below `2^32` are equal as 32-bit words exactly when they are equal. -/
theorem ofNat_inj (i j : Fin 8192) : BitVec.ofNat 32 i.val = BitVec.ofNat 32 j.val ↔ i = j := by
  constructor
  · intro h
    have e := congrArg BitVec.toNat h
    simp only [BitVec.toNat_ofNat] at e
    have hi := i.isLt
    have hj := j.isLt
    exact Fin.ext (by omega)
  · rintro rfl; rfl

/-- The comparison of the row number (plus the zero word) with the column number: the bit of the diagonal. -/
theorem diag_bit (i j : Fin 8192) :
    IntOp.cmpi .eq (IntOp.addi (BitVec.ofNat 32 i.val) 0#32) (BitVec.ofNat 32 j.val) = if i = j then 1#1 else 0#1 := by
  rw [IntOp.addi_eq_add]
  show BitVec.ofBool (BitVec.ofNat 32 i.val + 0#32 == BitVec.ofNat 32 j.val) = _
  rw [BitVec.add_zero]
  by_cases h : i = j
  · subst h; simp
  · rw [if_neg h, beq_false_of_ne fun e => h ((ofNat_inj i j).mp e)]
    rfl

/-- The mask `1 - δ`: zero on the diagonal, one off it. -/
theorem v21_at (i j : Fin 8192) : val_main_v21 (F := Ideal) (ix2 i j) = if i = j then 0 else 1 := by
  rw [val_main_v21_apply, val_main_v20_apply, val_main_cst_1_apply, val_main_v19_apply, val_main_v18_apply,
    val_main_v17_apply, val_main_v14_apply, val_main_v15_apply, val_main_v16_apply, val_main_c_apply]
  show Ideal.ofBits .f32 0x3F800000#32
      - (((IntOp.cmpi .eq (IntOp.addi (BitVec.ofNat 32 i.val) 0#32) (BitVec.ofNat 32 j.val)).toNat : ℝ) : EReal) = _
  rw [ofBits_one, diag_bit]
  by_cases h : i = j
  · rw [if_pos h, if_pos h]
    show (1 : EReal) - (((1 : ℕ) : ℝ) : EReal) = 0
    rw [Nat.cast_one, EReal.coe_one, ← EReal.coe_one, ← EReal.coe_sub, sub_self, EReal.coe_zero]
  · rw [if_neg h, if_neg h]
    show (1 : EReal) - (((0 : ℕ) : ℝ) : EReal) = 1
    rw [Nat.cast_zero, EReal.coe_zero, sub_zero]

/-! ## The denominator and the log-probabilities -/

/-- The exponential of the shifted similarity times the mask: zero on the diagonal. -/
theorem v23_at (i j : Fin 8192) : val_main_v23 (F := Ideal) x0 (ix2 i j) = offDiagExp (feat x0) i j := by
  rw [val_main_v23_apply, val_main_v22_apply, v13_at, v21_at]
  show Ideal.exp _ * _ = _
  unfold offDiagExp
  by_cases h : i = j
  · rw [if_pos h, if_pos h, mul_zero]
  · rw [if_neg h, if_neg h, mul_one]

/-- The column with row `i` of a row-wise sum's operand is `(i, j)`. -/
theorem idx24_row (i j : Fin 8192) : idx_main_v24 (ix1 i) j = ix2 i j :=
  funext fun a => Fin.ext (by match a with | ⟨0, _⟩ => rfl | ⟨1, _⟩ => rfl)

/-- The softmax denominator: the masked exponentials summed over the row (the initial term is zero). -/
theorem v24_at (i : Fin 8192) : val_main_v24 (F := Ideal) x0 (ix1 i) = denom (feat x0) i := by
  rw [val_main_v24_apply, val_main_cst_2_apply]
  show Ideal.ofBits .f32 0x00000000#32 + _ = _
  rw [Ideal.ofBits_zero_f32, zero_add]
  unfold denom
  refine Finset.sum_congr rfl fun j _ => ?_
  rw [idx24_row, v23_at]

/-- The log-probability: the shifted similarity less the logarithm of its row's denominator. -/
theorem v28_at (i j : Fin 8192) : val_main_v28 (F := Ideal) x0 (ix2 i j) = logProb (feat x0) i j := by
  rw [val_main_v28_apply, v13_at, val_main_v27_apply, val_main_v26_apply, val_main_v25_apply]
  have e : idx_main_v25 (idx_main_v27 (ix2 i j)) = ix1 i :=
    funext fun a => Fin.ext (by match a with | ⟨0, _⟩ => rfl)
  rw [e, v24_at]
  rfl

/-! ## The positives -/

/-- The bit of an equality of words, read as a float: one where the words are equal, zero elsewhere. -/
theorem cmpi_eq_float {w : Nat} (a b : BitVec w) :
    (((IntOp.cmpi .eq a b).toNat : ℝ) : EReal) = if a = b then 1 else 0 := by
  show (((BitVec.ofBool (a == b)).toNat : ℝ) : EReal) = _
  by_cases h : a = b
  · rw [if_pos h, h, beq_self_eq_true]
    show (((1 : ℕ) : ℝ) : EReal) = 1
    rw [Nat.cast_one, EReal.coe_one]
  · rw [if_neg h, beq_false_of_ne h]
    show (((0 : ℕ) : ℝ) : EReal) = 0
    rw [Nat.cast_zero, EReal.coe_zero]

/-- The label mask: one where rows `i` and `j` carry the same label. -/
theorem v5_at (i j : Fin 8192) : val_main_v5 (F := Ideal) x1 (ix2 i j) = sameLabel (labl x1) i j := by
  rw [val_main_v5_apply, val_main_v4_apply, val_main_v2_apply, val_main_v3_apply, val_main_v0_apply, val_main_v1_apply]
  have e0 : idx_main_v0 (idx_main_v2 (ix2 i j)) = ix1 i :=
    funext fun a => Fin.ext (by match a with | ⟨0, _⟩ => rfl)
  have e1 : idx_main_v1 (idx_main_v3 (ix2 i j)) = ix1 j :=
    funext fun a => Fin.ext (by match a with | ⟨0, _⟩ => rfl)
  rw [e0, e1]
  exact cmpi_eq_float _ _

/-- The log-probability masked off the diagonal and by the labels: the log-probability times the positives' mask. -/
theorem v30_at (i j : Fin 8192) :
    val_main_v30 (F := Ideal) x0 x1 (ix2 i j) = logProb (feat x0) i j * posMask (labl x1) i j := by
  rw [val_main_v30_apply, val_main_v29_apply, v28_at, v21_at, v5_at]
  show _ * _ * _ = _
  unfold posMask
  by_cases h : i = j
  · rw [if_pos h, if_pos h, mul_zero, zero_mul]
  · rw [if_neg h, if_neg h, mul_one]

/-- The log-probabilities of row `i` summed over its positives (the initial term is zero). -/
theorem v31_at (i : Fin 8192) : val_main_v31 (F := Ideal) x0 x1 (ix1 i) = rowSum (feat x0) (labl x1) i := by
  rw [val_main_v31_apply, val_main_cst_3_apply]
  show Ideal.ofBits .f32 0x00000000#32 + _ = _
  rw [Ideal.ofBits_zero_f32, zero_add]
  unfold rowSum
  refine Finset.sum_congr rfl fun j _ => ?_
  have e : idx_main_v31 (ix1 i) j = ix2 i j :=
    funext fun a => Fin.ext (by match a with | ⟨0, _⟩ => rfl | ⟨1, _⟩ => rfl)
  rw [e, v30_at]

/-- The number of columns carrying row `i`'s label (the initial term is zero). -/
theorem v32_at (i : Fin 8192) : val_main_v32 (F := Ideal) x1 (ix1 i) = count (labl x1) i := by
  rw [val_main_v32_apply, val_main_cst_4_apply]
  show Ideal.ofBits .f32 0x00000000#32 + _ = _
  rw [Ideal.ofBits_zero_f32, zero_add]
  unfold count
  refine Finset.sum_congr rfl fun j _ => ?_
  have e : idx_main_v32 (ix1 i) j = ix2 i j :=
    funext fun a => Fin.ext (by match a with | ⟨0, _⟩ => rfl | ⟨1, _⟩ => rfl)
  rw [e, v5_at]

/-! ## The rows' losses and their mean -/

/-- The count is a sum of zeros and ones whose diagonal term is one: it is at least one, so it is not zero. -/
theorem count_ne_zero (lab : Fin 8192 → BitVec 32) (i : Fin 8192) : count lab i ≠ 0 := by
  have hnn : ∀ j ∈ (Finset.univ : Finset (Fin 8192)), (0 : EReal) ≤ sameLabel lab i j := fun j _ => by
    unfold sameLabel
    by_cases h : lab i = lab j
    · rw [if_pos h]; exact zero_le_one
    · rw [if_neg h]
  have h1 : sameLabel lab i i ≤ count lab i := Finset.single_le_sum hnn (Finset.mem_univ i)
  have hd : sameLabel lab i i = 1 := if_pos rfl
  rw [hd] at h1
  intro e
  rw [e] at h1
  exact absurd h1 (not_le.mpr zero_lt_one)

/-- Minus a quotient is the quotient of minus the numerator, when the divisor is not zero: both are
    `(-a) * b⁻¹`. (At `b = 0` and `a = 0` the two sides differ, `⊤` against `⊥`; the count is never zero.) -/
theorem neg_div_of_ne_zero (a b : EReal) (hb : b ≠ 0) : -(Ideal.div a b) = Ideal.div (0 - a) b := by
  rw [Ideal.div, Ideal.div, if_neg hb, if_neg hb, zero_sub, neg_mul]

/-- Row `i`'s loss. -/
theorem v34_at (i : Fin 8192) : val_main_v34 (F := Ideal) x0 x1 (ix1 i) = rowLoss (feat x0) (labl x1) i := by
  rw [val_main_v34_apply, val_main_v33_apply, v31_at, v32_at]
  show -(Ideal.div _ _) = _
  rw [neg_div_of_ne_zero _ _ (count_ne_zero _ i)]
  rfl

/-- A rank-1 index is its coordinate … -/
def idxEquiv1 : S8192.Idx ≃ Fin 8192 where
  toFun j := j 0
  invFun i := ix1 i
  left_inv j := (eq_ix1 j).symm
  right_inv _ := rfl

/-- … so a sum over the rank-1 indices is the sum over the coordinate. -/
theorem sum_idx1 (g : S8192.Idx → EReal) : ∑ j, g j = ∑ i : Fin 8192, g (ix1 i) := by
  rw [← Equiv.sum_comp idxEquiv1.symm g]
  rfl

/-- THE REFERENCE IS THE SPECIFICATION: the reference's result, as the stage the generated reading names it, is the
    rank-0 array holding the loss of the feature matrix and the label vector read by their coordinates. -/
theorem val_main_v36_eq_loss :
    val_main_v36 (F := Ideal) x0 x1
      = fun _ => loss (fun i k => x0 (ix2 i k)) (fun i => x1 (ix1 i)) := by
  funext z
  rw [val_main_v36_apply, val_main_v35_apply, val_main_cst_5_apply, val_main_cst_6_apply, sum_idx1]
  simp only [v34_at]
  show Ideal.div (Ideal.ofBits .f32 0x00000000#32 + _) (Ideal.ofBits .f32 0x46000000#32) = _
  rw [Ideal.ofBits_zero_f32]
  rfl

/-- The same of the term the generated run states for the result buffer — the reference's operations composed, of the
    two argument arrays —: it is the rank-0 array holding the loss. -/
theorem run_result_eq_loss :
    (Host.divf (Host.reduceAdd (Host.negf (Host.divf (Host.reduceAdd (mulf (mulf (subf (subf (Host.divf (Host.dotGeneral (φ₁ := .f32) (φ₂ := .f32) dot_S8192x128_S128x8192_S8192x8192_1_0_0_1_n_n none (x0) (transpose S128x8192 [1, 0] (x0) transposes_S8192x128_S128x8192_1_0)) (broadcastInDim S8192x8192 ![] bcast_S_S8192x8192 (constant S_ .f32 0x3E4CCCCD#32))) (broadcastInDim S8192x8192 ![0, 1] bcast_S8192x1_S8192x8192_0_1 (broadcastInDim S8192x1 ![0] bcast_S8192_S8192x1_0 (Host.reduce FloatOps.maximumf (Host.divf (Host.dotGeneral (φ₁ := .f32) (φ₂ := .f32) dot_S8192x128_S128x8192_S8192x8192_1_0_0_1_n_n none (x0) (transpose S128x8192 [1, 0] (x0) transposes_S8192x128_S128x8192_1_0)) (broadcastInDim S8192x8192 ![] bcast_S_S8192x8192 (constant S_ .f32 0x3E4CCCCD#32))) (constant S_ .f32 0xFF800000#32) reducesTo_S8192x8192_S8192_d1 h_S_)))) (broadcastInDim S8192x8192 ![0, 1] bcast_S8192x1_S8192x8192_0_1 (Host.log (broadcastInDim S8192x1 ![0] bcast_S8192_S8192x1_0 (Host.reduceAdd (mulf (Host.exp (subf (Host.divf (Host.dotGeneral (φ₁ := .f32) (φ₂ := .f32) dot_S8192x128_S128x8192_S8192x8192_1_0_0_1_n_n none (x0) (transpose S128x8192 [1, 0] (x0) transposes_S8192x128_S128x8192_1_0)) (broadcastInDim S8192x8192 ![] bcast_S_S8192x8192 (constant S_ .f32 0x3E4CCCCD#32))) (broadcastInDim S8192x8192 ![0, 1] bcast_S8192x1_S8192x8192_0_1 (broadcastInDim S8192x1 ![0] bcast_S8192_S8192x1_0 (Host.reduce FloatOps.maximumf (Host.divf (Host.dotGeneral (φ₁ := .f32) (φ₂ := .f32) dot_S8192x128_S128x8192_S8192x8192_1_0_0_1_n_n none (x0) (transpose S128x8192 [1, 0] (x0) transposes_S8192x128_S128x8192_1_0)) (broadcastInDim S8192x8192 ![] bcast_S_S8192x8192 (constant S_ .f32 0x3E4CCCCD#32))) (constant S_ .f32 0xFF800000#32) reducesTo_S8192x8192_S8192_d1 h_S_))))) (subf (broadcastInDim S8192x8192 ![] bcast_S_S8192x8192 (constant S_ .f32 0x3F800000#32)) (uitofp .f32 (cmpi .eq (addi (iotaInDim S8192x8192 32 0) (broadcastInDim S8192x8192 ![] bcast_S_S8192x8192 (constantI S_ 32 0#32))) (iotaInDim S8192x8192 32 1))))) (constant S_ .f32 0x00000000#32) reducesTo_S8192x8192_S8192_d1 h_S_))))) (subf (broadcastInDim S8192x8192 ![] bcast_S_S8192x8192 (constant S_ .f32 0x3F800000#32)) (uitofp .f32 (cmpi .eq (addi (iotaInDim S8192x8192 32 0) (broadcastInDim S8192x8192 ![] bcast_S_S8192x8192 (constantI S_ 32 0#32))) (iotaInDim S8192x8192 32 1))))) (uitofp .f32 (cmpi .eq (broadcastInDim S8192x8192 ![0, 1] bcast_S8192x1_S8192x8192_0_1 (broadcastInDim S8192x1 ![0] bcast_S8192_S8192x1_0 (x1))) (broadcastInDim S8192x8192 ![0, 1] bcast_S1x8192_S8192x8192_0_1 (broadcastInDim S1x8192 ![1] bcast_S8192_S1x8192_1 (x1)))))) (constant S_ .f32 0x00000000#32) reducesTo_S8192x8192_S8192_d1 h_S_) (Host.reduceAdd (uitofp .f32 (cmpi .eq (broadcastInDim S8192x8192 ![0, 1] bcast_S8192x1_S8192x8192_0_1 (broadcastInDim S8192x1 ![0] bcast_S8192_S8192x1_0 (x1))) (broadcastInDim S8192x8192 ![0, 1] bcast_S1x8192_S8192x8192_0_1 (broadcastInDim S1x8192 ![1] bcast_S8192_S1x8192_1 (x1))))) (constant S_ .f32 0x00000000#32) reducesTo_S8192x8192_S8192_d1 h_S_))) (constant S_ .f32 0x00000000#32) reducesTo_S8192_S_d0 h_S_) (constant S_ .f32 0x46000000#32)
        : FVec Ideal S_ .f32)
      = fun _ => loss (fun i k => x0 (ix2 i k)) (fun i => x1 (ix1 i)) :=
  (val_main_v36_eq (F := Ideal) x0 x1).trans (val_main_v36_eq_loss x0 x1)

end Cert.SupCon.Ref

end
-- ==== Proof.lean ====
/-
  The certificate's five claims.

  Both idealized programs compute, on the extended reals, the supervised-contrastive loss of the feature matrix and
  the label vector (Proof/Spec.lean): the kernel by 64 blocks of 128 rows, each block's similarities taken against the
  whole matrix, the host summing the rows' losses afterwards; the reference by one 8192 × 8192 similarity matrix. The
  kernel scales a similarity by its constant `5`, named for the exact reciprocal `67108864 / 13421773` of the
  temperature `13421773 / 67108864` the reference divides by, so the two scalings are one. The frames: each program
  runs to its end, faulting nowhere, its argument arrays unchanged — the kernel's two programs as one region between two
  stretches of host operations (Proof/RegionBits.lean, Proof/RegionIdeal.lean), the reference as a line of host operations.
-/
import proofs.«168313_j43267500540145_2_alg».proof.Defs
import proofs.«168313_j43267500540145_2_alg».proof.Proof.Gen.Kernel
import proofs.«168313_j43267500540145_2_alg».proof.Proof.Gen.Kernel.Skeleton
import proofs.«168313_j43267500540145_2_alg».proof.Proof.Gen.Kernel.Launch
import proofs.«168313_j43267500540145_2_alg».proof.Proof.Gen.Kernel.Points
import proofs.«168313_j43267500540145_2_alg».proof.Proof.Gen.KernelIdeal
import proofs.«168313_j43267500540145_2_alg».proof.Proof.Gen.KernelIdeal.Skeleton
import proofs.«168313_j43267500540145_2_alg».proof.Proof.Gen.KernelIdeal.Launch
import proofs.«168313_j43267500540145_2_alg».proof.Proof.Gen.KernelIdeal.Points
import proofs.«168313_j43267500540145_2_alg».proof.Proof.Gen.ReferenceIdeal
import proofs.«168313_j43267500540145_2_alg».proof.Proof.Gen.ReferenceIdeal.Run
import proofs.«168313_j43267500540145_2_alg».proof.Proof.Gen.ReferenceIdeal.Read
import proofs.«168313_j43267500540145_2_alg».proof.Proof.Gen.Pre_finite_inputs
import proofs.«168313_j43267500540145_2_alg».proof.Proof.RegionBits
import proofs.«168313_j43267500540145_2_alg».proof.Proof.RegionIdeal
import proofs.«168313_j43267500540145_2_alg».proof.Proof.KernelValue
import proofs.«168313_j43267500540145_2_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel's program runs to its end and leaves its arguments as launched. -/
theorem frame_k [Cert.Kernel.Facts] [Cert.Pre_finite_inputs.Facts] : Cert.frame_Kernel := fun m ρ _ =>
  (θ_run (Cert.Kernel.defs (F := Bits)) _ _).mono (fun _ h c => (h c).2) (Cert.Kernel.Region.run (F := Bits) m ρ)

/-- So does the idealized kernel's. -/
theorem frame_ki [Cert.KernelIdeal.Facts] [Cert.Pre_finite_inputs.Facts] : Cert.frame_KernelIdeal := fun m ρ _ =>
  (θ_run (Cert.KernelIdeal.defs (F := Ideal)) _ _).mono (fun _ h c => (h c).2) (Cert.KernelIdeal.Region.run (F := Ideal) m ρ)

/-- And the reference's: its run with the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- The one rewrite of the idealization: the scale `5` read as the exact reciprocal of the reference's temperature. -/
theorem preserves : Cert.preserves_Kernel_KernelIdeal :=
  IdealRules.named_const.statement Cert.KernelIdeal.κ "inv_temperature" .f32 0x40A00000#32 ((67108864 / 13421773 : ℝ) : EReal) rfl

/-- Both idealized programs end with the specification's loss of the (agreeing) argument arrays in their result. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => (fun _ => Cert.SupCon.loss (Cert.SupCon.KVal.feat m c) (Cert.SupCon.KVal.labs m c)), ?_, ?_⟩
  · exact (θ_run (Cert.KernelIdeal.defs (F := Ideal)) _ _).mono
      (fun _ h c => ⟨(h c).1.trans (Cert.SupCon.KVal.result_eq m ρ c), (h c).2⟩) (Cert.KernelIdeal.Region.run (F := Ideal) m ρ)
  · refine (θ_run Cert.ReferenceIdeal.defs _ _).mono (fun _ h c => ⟨?_, (h c).2⟩) (Cert.ReferenceIdeal.Value.run (F := Ideal) m' ρ')
    rw [(h c).1, Cert.SupCon.Ref.run_result_eq_loss, (hagree c).1, (hagree c).2]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
